-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S1000000x2 : Shape := ⟨2, ![1000000, 2]⟩
abbrev S1000000x8 : Shape := ⟨2, ![1000000, 8]⟩
abbrev S100000x32 : Shape := ⟨2, ![100000, 32]⟩
abbrev S32x64 : Shape := ⟨2, ![32, 64]⟩
abbrev S64 : Shape := ⟨1, ![64]⟩
abbrev S64x64 : Shape := ⟨2, ![64, 64]⟩
abbrev S72x64 : Shape := ⟨2, ![72, 64]⟩
abbrev S64x1 : Shape := ⟨2, ![64, 1]⟩
abbrev S1 : Shape := ⟨1, ![1]⟩
abbrev S_ : Shape := ⟨0, ![]⟩

class Facts : Prop where
  bcast_S_S1000000x8 : S_.BroadcastsInDim S1000000x8 (![] : Fin 0 → Fin S1000000x8.rank)
  reducesTo_S1000000x8_S_d0_1 : S1000000x8.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S72x64 : S_.BroadcastsInDim S72x64 (![] : Fin 0 → Fin S72x64.rank)
  reducesTo_S72x64_S_d0_1 : S72x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64 .f32) (main_arg10 : FVec F S64x1 .f32) (main_arg11 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S72x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S72x64 .f32 := Host.absf main_arg8
  let main_cst_10 : FVec F S_ .f32 := constant S_ .f32 0x7F800000#32
  let main_v30 : FVec F S72x64 .f32 := broadcastInDim S72x64 ![] bcast_S_S72x64 main_cst_10
  let main_v31 : IVec S72x64 1 := cmpf .olt main_v29 main_v30
  let main_c_11 : IVec S_ 1 := constantI S_ 1 1#1
  let main_v32 : IVec S_ 1 := (fun x v => Host.reduce IntOp.andi x v reducesTo_S72x64_S_d0_1 h_S_) main_v31 main_c_11
  let main_v33 : IVec S_ 1 := andi main_v28 main_v32
  fn_part2 (F := F) main_arg9 main_arg10 main_arg11 main_v33

def fn {F : FTy → Type} [FloatOps F] (main_arg0 : IVec S2x3200000 32) (main_arg1 : IVec S1000000x2 32) (main_arg2 : FVec F S1000000x8 .f32) (main_arg3 : FVec F S100000x32 .f32) (main_arg4 : FVec F S32x64 .f32) (main_arg5 : FVec F S64 .f32) (main_arg6 : FVec F S64x64 .f32) (main_arg7 : FVec F S64 .f32) (main_arg8 : FVec F S72x64 .f32) (main_arg9 : FVec F S64 .f32) (main_arg10 : FVec F S64x1 .f32) (main_arg11 : FVec F S1 .f32) : IVec S_ 1 :=
  let main_v0 : FVec F S1000000x8 .f32 := Host.absf main_arg2
  let main_cst : FVec F S_ .f32 := constant S_ .f32 0x7F800000#32
  let main_v1 : FVec F S1000000x8 .f32 := broadcastInDim S1000000x8 ![] bcast_S_S1000000x8 main_cst
  let main_v2 : IVec S1000000x8 1 := cmpf .olt main_v0 main_v1
  let main_c : IVec S_ 1 := constantI S_ 1 1#1
  let main_v3 : IVec S_ 1 := (fun x v => Host.reduce IntOp.andi x v reducesTo_S1000000x8_S_d0_1 h_S_) main_v2 main_c
  let main_v4 : FVec F S100000x32 .f32 := Host.absf main_arg3
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S2x3200000 : Shape := ⟨2, ![2, 3200000]⟩
abbrev S1000000x2 : Shape := ⟨2, ![1000000, 2]⟩
abbrev S1000000x8 : Shape := ⟨2, ![1000000, 8]⟩
abbrev S100000x32 : Shape := ⟨2, ![100000, 32]⟩
abbrev S32x64 : Shape := ⟨2, ![32, 64]⟩
abbrev S64 : Shape := ⟨1, ![64]⟩
abbrev S64x64 : Shape := ⟨2, ![64, 64]⟩
abbrev S72x64 : Shape := ⟨2, ![72, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x32 : Shape := ⟨2, ![10000, 32]⟩
abbrev S10000x64 : Shape := ⟨2, ![10000, 64]⟩
abbrev S3300000x64 : Shape := ⟨2, ![3300000, 64]⟩
abbrev S1x64 : Shape := ⟨2, ![1, 64]⟩
abbrev S1000000x1 : Shape := ⟨2, ![1000000, 1]⟩
abbrev S1000000 : Shape := ⟨1, ![1000000]⟩
abbrev S1000000x64 : Shape := ⟨2, ![1000000, 64]⟩
abbrev S1007616x64 : Shape := ⟨2, ![1007616, 64]⟩
abbrev S64x1007616 : Shape := ⟨2, ![64, 1007616]⟩
abbrev S1007616x8 : Shape := ⟨2, ![1007616, 8]⟩
abbrev S8x1007616 : Shape := ⟨2, ![8, 1007616]⟩
abbrev S8x64 : Shape := ⟨2, ![8, 64]⟩
abbrev S64x8 : Shape := ⟨2, ![64, 8]⟩
abbrev S1x1 : Shape := ⟨2, ![1, 1]⟩
abbrev S1x1007616 : Shape := ⟨2, ![1, 1007616]⟩
abbrev S64x8192 : Shape := ⟨2, ![64, 8192]⟩
abbrev S8x8192 : Shape := ⟨2, ![8, 8192]⟩
abbrev S1x8192 : Shape := ⟨2, ![1, 8192]⟩
abbrev S1x1000000 : Shape := ⟨2, ![1, 1000000]⟩

abbrev nBuf : Space → Nat
  | .hbm => 166
  | .vmem => 23
  | .smem => 0
  | _ => 0

abbrev hbmTy0_0 (i : Nat) : BufTy := match i % 128 with
  | 0 => ⟨S2x3200000, .i32⟩
  | 1 => ⟨S1000000x2, .i32⟩
  | 2 => ⟨S1000000x8, .f32⟩
  | 3 => ⟨S100000x32, .f32⟩
  | 4 => ⟨S32x64, .f32⟩
  | 5 => ⟨S64, .f32⟩
  | 6 => ⟨S64x64, .f32⟩
  | 7 => ⟨S64, .f32⟩
  | 8 => ⟨S72x64, .f32⟩
  | 9 => ⟨S64, .f32⟩
  | 10 => ⟨S64x1, .f32⟩
  | 11 => ⟨S1, .f32⟩
  | 12 => ⟨S100000, .i32⟩
  | 13 => ⟨S1x3200000, .i32⟩
  | 14 => ⟨S3200000, .i32⟩
  | 15 => ⟨S3300000, .i32⟩
  | 16 => ⟨S1x3200000, .i32⟩
  | 17 => ⟨S3200000, .i32⟩
  | 18 => ⟨S3300000, .i32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S100000x64, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S3300000, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x64, .f32⟩
  | 64 => ⟨S3300000x1, .f32⟩
  | 65 => ⟨S3300000x64, .f32⟩
  | 66 => ⟨S3300000x64, .f32⟩
  | 67 => ⟨S_, .f32⟩
  | 68 => ⟨S100000x64, .f32⟩
  | 69 => ⟨S3300000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S_, .i32⟩
  | 79 => ⟨S3300000, .i32⟩
  | 80 => ⟨S3300000, .i1⟩
  | 81 => ⟨S_, .i32⟩
  | 82 => ⟨S3300000, .i32⟩
  | 83 => ⟨S3300000, .i32⟩
  | 84 => ⟨S3300000, .i32⟩
  | 85 => ⟨S3300000x1, .i32⟩
  | 86 => ⟨S3300000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S3300000, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000x64, .f32⟩
  | 106 => ⟨S3300000x1, .f32⟩
  | 107 => ⟨S3300000x64, .f32⟩
  | 108 => ⟨S3300000x64, .f32⟩
  | 109 => ⟨S_, .f32⟩
  | 110 => ⟨S100000x64, .f32⟩
  | 111 => ⟨S3300000x1, .i32⟩
  | 112 => ⟨S100000x64, .f32⟩
  | 113 => ⟨S1x64, .f32⟩
  | 114 => ⟨S100000x64, .f32⟩
  | 115 => ⟨S100000x64, .f32⟩
  | 116 => ⟨S1000000x1, .i32⟩
  | 117 => ⟨S1000000, .i32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x64, .f32⟩
  | 127 => ⟨S1000000x1, .i32⟩
  | _ => ⟨S2x3200000, .i32⟩

abbrev hbmTy0_1 (i : Nat) : BufTy := match i % 128 with
  | 0 => ⟨S1000000, .i32⟩
  | 1 => ⟨S_, .i32⟩
  | 2 => ⟨S1000000, .i32⟩
  | 3 => ⟨S1000000, .i1⟩
  | 4 => ⟨S_, .i32⟩
  | 5 => ⟨S1000000, .i32⟩
  | 6 => ⟨S1000000, .i32⟩
  | 7 => ⟨S1000000, .i32⟩
  | 8 => ⟨S1000000x1, .i32⟩
  | 9 => ⟨S1000000x64, .f32⟩
  | 10 => ⟨S1000000x64, .bf16⟩
  | 11 => ⟨S_, .i32⟩
  | 12 => ⟨S_, .bf16⟩
  | 13 => ⟨S1007616x64, .bf16⟩
  | 14 => ⟨S64x1007616, .bf16⟩
  | 15 => ⟨S1000000x64, .bf16⟩
  | 16 => ⟨S_, .i32⟩
  | 17 => ⟨S_, .bf16⟩
  | 18 => ⟨S1007616x64, .bf16⟩
  | 19 => ⟨S64x1007616, .bf16⟩
  | 20 => ⟨S1000000x8, .bf16⟩
  | 21 => ⟨S_, .i32⟩
  | 22 => ⟨S_, .bf16⟩
  | 23 => ⟨S1007616x8, .bf16⟩
  | 24 => ⟨S8x1007616, .bf16⟩
  | 25 => ⟨S64x64, .f32⟩
  | 26 => ⟨S64x64, .f32⟩
  | 27 => ⟨S64x64, .bf16⟩
  | 28 => ⟨S8x64, .f32⟩
  | 29 => ⟨S64x8, .f32⟩
  | 30 => ⟨S64x8, .bf16⟩
  | 31 => ⟨S1x64, .f32⟩
  | 32 => ⟨S1x64, .bf16⟩
  | 33 => ⟨S64x1, .f32⟩
  | 34 => ⟨S1x1, .f32⟩
  | 35 => ⟨S1x1007616, .f32⟩
  | 36 => ⟨S1x1000000, .f32⟩
  | 37 => ⟨S1000000, .f32⟩
  | _ => ⟨S2x3200000, .i32⟩

abbrev hbmTy (i : Nat) : BufTy := match i / 128 with
  | 0 => hbmTy0_0 i
  | 1 => hbmTy0_1 i
  | _ => ⟨S2x3200000, .i32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S64x8192, .bf16⟩
  | .local _ .vmem, ⟨11, _⟩ => ⟨S64x8192, .bf16⟩
  | .local _ .vmem, ⟨12, _⟩ => ⟨S64x8192, .bf16⟩
  | .local _ .vmem, ⟨13, _⟩ => ⟨S64x8192, .bf16⟩
  | .local _ .vmem, ⟨14, _⟩ => ⟨S8x8192, .bf16⟩
  | .local _ .vmem, ⟨15, _⟩ => ⟨S8x8192, .bf16⟩
  | .local _ .vmem, ⟨16, _⟩ => ⟨S64x64, .bf16⟩
  | .local _ .vmem, ⟨17, _⟩ => ⟨S64x8, .bf16⟩
  | .local _ .vmem, ⟨18, _⟩ => ⟨S64x1, .f32⟩
  | .local _ .vmem, ⟨19, _⟩ => ⟨S1x64, .bf16⟩
  | .local _ .vmem, ⟨20, _⟩ => ⟨S1x1, .f32⟩
  | .local _ .vmem, ⟨21, _⟩ => ⟨S1x8192, .f32⟩
  | .local _ .vmem, ⟨22, _⟩ => ⟨S1x8192, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_cst : Ref sig .tc := ⟨.hbm, 74, rfl⟩
abbrev main_call1_v0 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_16 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_17 : Ref sig .tc := ⟨.hbm, 118, rfl⟩
abbrev main_v83 : Ref sig .tc := ⟨.hbm, 119, rfl⟩
abbrev main_v84 : Ref sig .tc := ⟨.hbm, 120, rfl⟩
abbrev main_c_18 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_19 : Ref sig .tc := ⟨.hbm, 129, rfl⟩
abbrev main_v92 : Ref sig .tc := ⟨.hbm, 130, rfl⟩
abbrev main_v93 : Ref sig .tc := ⟨.hbm, 131, rfl⟩
abbrev main_c_20 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_c_21 : Ref sig .tc := ⟨.hbm, 139, rfl⟩
abbrev main_call2_v0 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_c_22 : Ref sig .tc := ⟨.hbm, 144, rfl⟩
abbrev main_call3_v0 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_23 : Ref sig .tc := ⟨.hbm, 149, rfl⟩
abbrev main_call4_v0 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg8_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem8_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![123], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S64x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x8192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x8192 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x8 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1x8192 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x2_S1000000x1_0_1 : S1000000x2.Slices ![0, 1] S1000000x1
  pads_S1000000x64_S1007616x64_076160_000 : S1000000x64.Pads (![0, 0] : Fin 2 → Nat) ![7616, 0] ![0, 0] S1007616x64
  h_S_ : 0 < S_.numel
  transposes_S1007616x64_S64x1007616_1_0 : S1007616x64.Transposes [1, 0] S64x1007616
  pads_S1000000x8_S1007616x8_076160_000 : S1000000x8.Pads (![0, 0] : Fin 2 → Nat) ![7616, 0] ![0, 0] S1007616x8
  transposes_S1007616x8_S8x1007616_1_0 : S1007616x8.Transposes [1, 0] S8x1007616
  slices_S72x64_S64x64_0_0 : S72x64.Slices ![0, 0] S64x64
  transposes_S64x64_S64x64_1_0 : S64x64.Transposes [1, 0] S64x64
  slices_S72x64_S8x64_64_0 : S72x64.Slices ![64, 0] S8x64
  transposes_S8x64_S64x8_1_0 : S8x64.Transposes [1, 0] S64x8
  transposes_S64x1_S1x64_1_0 : S64x1.Transposes [1, 0] S1x64
  shapeCasts_S64_S64x1 : S64.ShapeCasts S64x1
  shapeCasts_S1_S1x1 : S1.ShapeCasts S1x1
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S8x8192_S8x8192_0_0 : ∀ a, (![0, 0] : Fin 2 → Nat) a + S8x8192.size a ≤ S8x8192.size a
  h_S8x8192 : 0 < S8x8192.numel
  shapeCasts_S8x8192_S8x8192 : S8x8192.ShapeCasts S8x8192
  shapeCasts_S64x64_S64x64 : S64x64.ShapeCasts S64x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8192 : S1x1.Broadcasts S1x8192
  inb_S1x8192_S1x8192_0_0 : ∀ a, (![0, 0] : Fin 2 → Nat) a + S1x8192.size a ≤ S1x8192.size a
  h_S1x8192 : 0 < S1x8192.numel
  slices_S1x1007616_S1x1000000_0_0 : S1x1007616.Slices ![0, 0] S1x1000000
  shapeCasts_S1x1000000_S1000000 : S1x1000000.ShapeCasts S1000000
  scatter_S100000_S3300000x1_S3300000_n_0_0_1_wf : ScatterDims.WF S100000 S3300000x1 S3300000 [] [0] [0] 1
  dot_S10000x32_S32x64_S10000x64_1_0_0_1_n_n_wf : DotDims.WF S10000x32 S32x64 S10000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  dot_S64x64_S64x8192_S64x8192_1_0_0_1_n_n_wf : DotDims.WF S64x64 S64x8192 S64x8192 [1] [0] [0] [1] [] []
  dot_S64x8_S8x8192_S64x8192_1_0_0_1_n_n_wf : DotDims.WF S64x8 S8x8192 S64x8192 [1] [0] [0] [1] [] []
  dot_S1x64_S64x8192_S1x8192_1_0_0_1_n_n_wf : DotDims.WF S1x64 S64x8192 S1x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x8192.size a ≤ S64x1007616.size a
  hwx2_0 : ∀ i : grid2.Coords, EltTy.bits .bf16 = 32 ∨ (Rect.block (s := S64x1007616) S64x8192.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x8192.size a ≤ S64x1007616.size a
  hwx2_1 : ∀ i : grid2.Coords, EltTy.bits .bf16 = 32 ∨ (Rect.block (s := S64x1007616) S64x8192.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x8192.size a ≤ S8x1007616.size a
  hwx2_2 : ∀ i : grid2.Coords, EltTy.bits .bf16 = 32 ∨ (Rect.block (s := S8x1007616) S8x8192.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x8.size a ≤ S64x8.size a
  hwx2_4 : ∀ i : grid2.Coords, EltTy.bits .bf16 = 32 ∨ (Rect.block (s := S64x8) S64x8.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .bf16 = 32 ∨ (Rect.block (s := S1x64) S1x64.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x8192.size a ≤ S1x1007616.size a
  hwx2_8 : ∀ i : grid2.Coords, EltTy.bits .f32 = 32 ∨ (Rect.block (s := S1x1007616) S1x8192.size (cc2_transform_8 i) (hinb2_8 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf
def dot_S64x8_S8x8192_S64x8192_1_0_0_1_n_n : DotDims S64x8 S8x8192 S64x8192 where
  lhsContracting := [1]
  rhsContracting := [0]
  lhsNonContracting := [0]
  rhsNonContracting := [1]
  lhsBatch := []
  rhsBatch := []
  wf := dot_S64x8_S8x8192_S64x8192_1_0_0_1_n_n_wf
def dot_S1x64_S64x8192_S1x8192_1_0_0_1_n_n : DotDims S1x64 S64x8192 S1x8192 where
  lhsContracting := [1]
  rhsContracting := [0]
  lhsNonContracting := [0]
  rhsNonContracting := [1]
  lhsBatch := []
  rhsBatch := []
  wf := dot_S1x64_S64x8192_S1x8192_1_0_0_1_n_n_wf

abbrev win0_0 : Pipeline.Window sig grid0 :=
  Pipeline.Window.ofSpec (Memref.whole main_arg3) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v101) S64x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v104) S64x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v107) S8x8192.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v110) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v113) S64x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v116) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v115) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v117) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v118) S1x8192.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S2x3200000 : Shape := ⟨2, ![2, 3200000]⟩
abbrev S1000000x2 : Shape := ⟨2, ![1000000, 2]⟩
abbrev S1000000x8 : Shape := ⟨2, ![1000000, 8]⟩
abbrev S100000x32 : Shape := ⟨2, ![100000, 32]⟩
abbrev S32x64 : Shape := ⟨2, ![32, 64]⟩
abbrev S64 : Shape := ⟨1, ![64]⟩
abbrev S64x64 : Shape := ⟨2, ![64, 64]⟩
abbrev S72x64 : Shape := ⟨2, ![72, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S1000000x1 : Shape := ⟨2, ![1000000, 1]⟩
abbrev S1000000 : Shape := ⟨1, ![1000000]⟩
abbrev S1000000x64 : Shape := ⟨2, ![1000000, 64]⟩
abbrev S1000000x72 : Shape := ⟨2, ![1000000, 72]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S2x3200000, .i32⟩
  | 1 => ⟨S1000000x2, .i32⟩
  | 2 => ⟨S1000000x8, .f32⟩
  | 3 => ⟨S100000x32, .f32⟩
  | 4 => ⟨S32x64, .f32⟩
  | 5 => ⟨S64, .f32⟩
  | 6 => ⟨S64x64, .f32⟩
  | 7 => ⟨S64, .f32⟩
  | 8 => ⟨S72x64, .f32⟩
  | 9 => ⟨S64, .f32⟩
  | 10 => ⟨S64x1, .f32⟩
  | 11 => ⟨S1, .f32⟩
  | 12 => ⟨S100000, .i32⟩
  | 13 => ⟨S1x3200000, .i32⟩
  | 14 => ⟨S3200000, .i32⟩
  | 15 => ⟨S3300000, .i32⟩
  | 16 => ⟨S1x3200000, .i32⟩
  | 17 => ⟨S3200000, .i32⟩
  | 18 => ⟨S3300000, .i32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S100000x64, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S3300000, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x64, .f32⟩
  | 64 => ⟨S3300000x1, .f32⟩
  | 65 => ⟨S3300000x64, .f32⟩
  | 66 => ⟨S3300000x64, .f32⟩
  | 67 => ⟨S_, .f32⟩
  | 68 => ⟨S100000x64, .f32⟩
  | 69 => ⟨S3300000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S_, .i32⟩
  | 79 => ⟨S3300000, .i32⟩
  | 80 => ⟨S3300000, .i1⟩
  | 81 => ⟨S_, .i32⟩
  | 82 => ⟨S3300000, .i32⟩
  | 83 => ⟨S3300000, .i32⟩
  | 84 => ⟨S3300000, .i32⟩
  | 85 => ⟨S3300000x1, .i32⟩
  | 86 => ⟨S3300000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S3300000, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000x64, .f32⟩
  | 106 => ⟨S3300000x1, .f32⟩
  | 107 => ⟨S3300000x64, .f32⟩
  | 108 => ⟨S3300000x64, .f32⟩
  | 109 => ⟨S_, .f32⟩
  | 110 => ⟨S100000x64, .f32⟩
  | 111 => ⟨S3300000x1, .i32⟩
  | 112 => ⟨S100000x64, .f32⟩
  | 113 => ⟨S1x64, .f32⟩
  | 114 => ⟨S100000x64, .f32⟩
  | 115 => ⟨S100000x64, .f32⟩
  | 116 => ⟨S1000000x1, .i32⟩
  | 117 => ⟨S1000000, .i32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x64, .f32⟩
  | 127 => ⟨S1000000x1, .i32⟩
  | _ => ⟨S2x3200000, .i32⟩

abbrev hbmTy0_1 (i : Nat) : BufTy := match i % 128 with
  | 0 => ⟨S1000000, .i32⟩
  | 1 => ⟨S_, .i32⟩
  | 2 => ⟨S1000000, .i32⟩
  | 3 => ⟨S1000000, .i1⟩
  | 4 => ⟨S_, .i32⟩
  | 5 => ⟨S1000000, .i32⟩
  | 6 => ⟨S1000000, .i32⟩
  | 7 => ⟨S1000000, .i32⟩
  | 8 => ⟨S1000000x1, .i32⟩
  | 9 => ⟨S1000000x64, .f32⟩
  | 10 => ⟨S1000000x64, .f32⟩
  | 11 => ⟨S1000000x72, .f32⟩
  | 12 => ⟨S1000000x64, .f32⟩
  | 13 => ⟨S1x64, .f32⟩
  | 14 => ⟨S1000000x64, .f32⟩
  | 15 => ⟨S1000000x64, .f32⟩
  | 16 => ⟨S_, .f32⟩
  | 17 => ⟨S1000000x64, .f32⟩
  | 18 => ⟨S1000000x64, .f32⟩
  | 19 => ⟨S1000000x1, .f32⟩
  | 20 => ⟨S1x1, .f32⟩
  | 21 => ⟨S1000000x1, .f32⟩
  | 22 => ⟨S1000000x1, .f32⟩
  | 23 => ⟨S1000000x1, .f32⟩
  | 24 => ⟨S1000000x1, .f32⟩
  | 25 => ⟨S_, .f32⟩
  | 26 => ⟨S1000000x1, .f32⟩
  | 27 => ⟨S1000000x1, .f32⟩
  | 28 => ⟨S_, .f32⟩
  | 29 => ⟨S1000000x1, .f32⟩
  | 30 => ⟨S1000000x1, .f32⟩
  | 31 => ⟨S1000000, .f32⟩
  | _ => ⟨S2x3200000, .i32⟩

abbrev hbmTy (i : Nat) : BufTy := match i / 128 with
  | 0 => hbmTy0_0 i
  | 1 => hbmTy0_1 i
  | _ => ⟨S2x3200000, .i32⟩

abbrev bufTy : (tb : Table) → Fin (tcTables nBuf tb) → BufTy
  | .hbm, ⟨i, _⟩ => hbmTy i
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_cst : Ref sig .tc := ⟨.hbm, 74, rfl⟩
abbrev main_call1_v0 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_16 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_17 : Ref sig .tc := ⟨.hbm, 118, rfl⟩
abbrev main_v83 : Ref sig .tc := ⟨.hbm, 119, rfl⟩
abbrev main_v84 : Ref sig .tc := ⟨.hbm, 120, rfl⟩
abbrev main_c_18 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_19 : Ref sig .tc := ⟨.hbm, 129, rfl⟩
abbrev main_v92 : Ref sig .tc := ⟨.hbm, 130, rfl⟩
abbrev main_v93 : Ref sig .tc := ⟨.hbm, 131, rfl⟩
abbrev main_c_20 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_call2_cst : Ref sig .tc := ⟨.hbm, 144, rfl⟩
abbrev main_call2_v0 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_21 : Ref sig .tc := ⟨.hbm, 153, rfl⟩
abbrev main_v112 : Ref sig .tc := ⟨.hbm, 154, rfl⟩
abbrev main_v113 : Ref sig .tc := ⟨.hbm, 155, rfl⟩
abbrev main_cst_22 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x2_S1000000x1_0_1 : S1000000x2.Slices ![0, 1] S1000000x1
  concatenates_S1000000x64_S1000000x8_S1000000x72_d1 : Shape.Concatenates [S1000000x64, S1000000x8] S1000000x72 1
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  scatter_S100000_S3300000x1_S3300000_n_0_0_1_wf : ScatterDims.WF S100000 S3300000x1 S3300000 [] [0] [0] 1
  dot_S100000x32_S32x64_S100000x64_1_0_0_1_n_n_wf : DotDims.WF S100000x32 S32x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  dot_S1000000x72_S72x64_S1000000x64_1_0_0_1_n_n_wf : DotDims.WF S1000000x72 S72x64 S1000000x64 [1] [0] [0] [1] [] []
  dot_S1000000x64_S64x1_S1000000x1_1_0_0_1_n_n_wf : DotDims.WF S1000000x64 S64x1 S1000000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x72_S72x64_S1000000x64_1_0_0_1_n_n : DotDims S1000000x72 S72x64 S1000000x64 where
  lhsContracting := [1]
  rhsContracting := [0]
  lhsNonContracting := [0]
  rhsNonContracting := [1]
  lhsBatch := []
  rhsBatch := []
  wf := dot_S1000000x72_S72x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.KernelRun.lean ====
/-
  The run of the idealized kernel program with its result named.

  The program's @main is a sequence of fifteen segments: stretches of host operations and three kernel regions. The
  buffer contents at each segment boundary are a fold from the launch memory: a host stretch applies its operations,
  a region leaves its arrays at what its blocks' write-backs leave and every other buffer as entered. The last
  boundary's contents are `W15`. Every weakly fair execution terminates, nothing faulting, with EVERY unscoped buffer at
  those contents; read at the arguments this is the frame, and read at the result buffer it names the result: that
  reading is stated here, beside the arguments ending as launched.
-/
import proofs.«118890_j31464930411166_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the last segment
    boundary's contents and each argument array as launched. -/
theorem run_result : θ_run defs (onTc (τ := τ) (main (F := F))) ⟨m, fun _ => 0, ρ⟩ (fun r => ∀ c : Dev nD,
      r.2.mem ((c.tc : Thread nD τ).loc main_v120) = W15 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v120 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.RunResult

end
-- ==== Proof.Linear0.lean ====
/- Region 0 of @main, the first tiled matrix product: the output array after the region is the matrix product of the
   100000 × 32 array and the 32 × 64 array the region finds, entry by entry. In order: the body's payload at an entry
   (a sum of products over the contraction index), what each grid point writes back (its block of 10000 rows of the
   product), the cover of the 100000 rows by the 10 blocks, and the whole array. -/
import proofs.«118890_j31464930411166_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Linear0

open Cert.KernelIdeal Cert.KernelIdeal.Gen Idealize.ShloMosaic Idealize.ShloMosaic.TcCoe Idealize.SL.Sem
open Idealize.ShloMosaic.Pipeline (Dat)

/-- Row `i 0` of the left factor at contraction index `k`. -/
abbrev lix (i : S100000x64.Idx) (k : Fin 32) : S100000x32.Idx := fun a => match a with
  | ⟨0, _⟩ => ⟨(i 0).val, (i 0).isLt⟩
  | ⟨1, _⟩ => ⟨k.val, k.isLt⟩
/-- Column `i 1` of the right factor at contraction index `k`. -/
abbrev rix (i : S100000x64.Idx) (k : Fin 32) : S32x64.Idx := fun a => match a with
  | ⟨0, _⟩ => ⟨k.val, k.isLt⟩
  | ⟨1, _⟩ => ⟨(i 1).val, (i 1).isLt⟩

/-- The matrix product of a 100000 × 32 array and a 32 × 64 array, entry by entry. -/
def prod (x : S100000x32.Idx → EReal) (w : S32x64.Idx → EReal) : S100000x64.Idx → EReal :=
  fun i => ∑ k : Fin 32, x (lix i k) * w (rix i k)

/-- Inside one block of 10000 rows: row `j 0` of the block's left factor at contraction index `k`. -/
abbrev blockLix (j : S10000x64.Idx) (k : Fin 32) : S10000x32.Idx := fun a => match a with
  | ⟨0, _⟩ => ⟨(j 0).val, (j 0).isLt⟩
  | ⟨1, _⟩ => ⟨k.val, k.isLt⟩
/-- Inside one block: column `j 1` of the right factor at contraction index `k`. -/
abbrev blockRix (j : S10000x64.Idx) (k : Fin 32) : S32x64.Idx := fun a => match a with
  | ⟨0, _⟩ => ⟨k.val, k.isLt⟩
  | ⟨1, _⟩ => ⟨(j 1).val, (j 1).isLt⟩

/-- The product's left operand index at output entry `j` and contraction index `q`: row `j 0`. -/
theorem lhs_row (j : S10000x64.Idx) (q : dot_S10000x32_S32x64_S10000x64_1_0_0_1_n_n.contr.Idx) :
    (dot_S10000x32_S32x64_S10000x64_1_0_0_1_n_n.lhsIdx j q 0).val = (j 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
/-- … and column `q`. -/
theorem lhs_col (j : S10000x64.Idx) (q : dot_S10000x32_S32x64_S10000x64_1_0_0_1_n_n.contr.Idx) :
    (dot_S10000x32_S32x64_S10000x64_1_0_0_1_n_n.lhsIdx j q 1).val = (q ⟨0, by decide⟩).val :=
  dot_S10000x32_S32x64_S10000x64_1_0_0_1_n_n.lhsIdx_val_of_single rfl j q
/-- The right operand index: row `q`. -/
theorem rhs_row (j : S10000x64.Idx) (q : dot_S10000x32_S32x64_S10000x64_1_0_0_1_n_n.contr.Idx) :
    (dot_S10000x32_S32x64_S10000x64_1_0_0_1_n_n.rhsIdx j q 0).val = (q ⟨0, by decide⟩).val :=
  dot_S10000x32_S32x64_S10000x64_1_0_0_1_n_n.rhsIdx_val_of_single rfl j q
/-- … and column `j 1`. -/
theorem rhs_col (j : S10000x64.Idx) (q : dot_S10000x32_S32x64_S10000x64_1_0_0_1_n_n.contr.Idx) :
    (dot_S10000x32_S32x64_S10000x64_1_0_0_1_n_n.rhsIdx j q 1).val = (j 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The body's payload at an entry of the block: rounding to bf16 is the identity at the ideal values, the
    accumulator is zero, so the entry is the sum over the contraction index of the products. -/
theorem payload_apply (x0 : FVec Ideal S10000x32 .f32) (x1 : FVec Ideal S32x64 .f32) (j : S10000x64.Idx) :
    k0_pay1 (F := Ideal) x0 x1 j = ∑ k : Fin 32, x0 (blockLix j k) * x1 (blockRix j k) := by
  unfold k0_pay1
  show FloatOps.matmul dot_S10000x32_S32x64_S10000x64_1_0_0_1_n_n none x0 x1 (constant S10000x64 .f32 0x00000000#32) j = _
  rw [Ideal.matmul_constant_zero_apply, ← Equiv.sum_comp (ValueIdx.contrEquiv1 dot_S10000x32_S32x64_S10000x64_1_0_0_1_n_n 32 rfl rfl).symm]
  refine Finset.sum_congr rfl fun k _ => ?_
  have hk := ValueIdx.contrEquiv1_symm_val dot_S10000x32_S32x64_S10000x64_1_0_0_1_n_n 32 rfl rfl k
  have el : dot_S10000x32_S32x64_S10000x64_1_0_0_1_n_n.lhsIdx j ((ValueIdx.contrEquiv1 dot_S10000x32_S32x64_S10000x64_1_0_0_1_n_n 32 rfl rfl).symm k) = blockLix j k := funext fun a => Fin.ext (by
    match a with
    | ⟨0, _⟩ => exact lhs_row _ _
    | ⟨1, _⟩ => exact (lhs_col _ _).trans hk)
  have er : dot_S10000x32_S32x64_S10000x64_1_0_0_1_n_n.rhsIdx j ((ValueIdx.contrEquiv1 dot_S10000x32_S32x64_S10000x64_1_0_0_1_n_n 32 rfl rfl).symm k) = blockRix j k := funext fun a => Fin.ext (by
    match a with
    | ⟨0, _⟩ => exact (rhs_row _ _).trans hk
    | ⟨1, _⟩ => exact rhs_col _ _)
  rw [el, er]

theorem zeroOffsets : (![0, 0] : Fin 2 → Nat) = fun _ => 0 := funext fun a => by fin_cases a <;> rfl

/-- The three index maps over the grid: the left factor's block moves with the output's row block, the right factor
    is always its one block, and the output's row block index stays below 10. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every one of the 10 row blocks is some grid point's. -/
theorem index_onto : ∀ q : Fin 10, ∃ t : Fin cfg0.N, win0_2.index t = ![q.val, 0] :=
  (by decide +kernel : ∀ q : Fin 10, ∃ t : Fin grid0.N, win0_2.index t = ![q.val, 0])

section
variable (V : (c : Dev nD) → (b : Ref sig .tc) → Buf (Elt Ideal) ((c : Thread nD τ).loc b))

/-- What grid point `t` writes back is block `t` of the matrix product of the two arrays as the region finds them. -/
theorem flushed_eq (c : Dev nD) (t : Fin cfg0.N) :
    (dat0 (F := Ideal) V c).flushed 2 t = ((cfg0.win 2).blk t).view.read (Elt Ideal) (prod (V c main_arg3) (V c main_arg4)) := by
  show (cfg0.win 2).cut (grid0.coords t) ((dat0 V c).after 2 t) = _
  rw [after0_2]
  unfold out0_2
  rw [View.canon_unit_zero zeroOffsets]
  simp only [View.ld_unit_zero (S := S10000x32) zeroOffsets, View.ld_unit_zero (S := S32x64) zeroOffsets]
  obtain ⟨e0, e1, e2, e3, e4, e5⟩ := index_facts t
  funext j
  show k0_pay1 (iblk0 V c 0 t) (iblk0 V c 1 t) j = prod (V c main_arg3) (V c main_arg4) (((cfg0.win 2).blk t).view.emb j)
  rw [payload_apply]
  unfold prod
  refine Finset.sum_congr rfl fun k _ => ?_
  have hj0 : (j 0).val < 10000 := (j 0).isLt
  have hj1 : (j 1).val < 64 := (j 1).isLt
  have hk : k.val < 32 := k.isLt
  have hl : iblk0 V c 0 t (blockLix j k) = V c main_arg3 (lix (((cfg0.win 2).blk t).view.emb j) k) := by
    show V c main_arg3 (((cfg0.win 0).blk t).view.emb (blockLix j k)) = V c main_arg3 (lix (((cfg0.win 2).blk t).view.emb j) k)
    refine congrArg _ ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 32 + 1 * k.val = k.val; omega
  have hr : iblk0 V c 1 t (blockRix j k) = V c main_arg4 (rix (((cfg0.win 2).blk t).view.emb j) k) := by
    show V c main_arg4 (((cfg0.win 1).blk t).view.emb (blockRix j k)) = V c main_arg4 (rix (((cfg0.win 2).blk t).view.emb j) k)
    refine congrArg _ ?_
    funext a; apply Fin.ext
    match a with
    | ⟨0, _⟩ => show win0_1.index t (0 : Fin 2) * 32 + 1 * k.val = k.val; omega
    | ⟨1, _⟩ => show win0_1.index t (1 : Fin 2) * 64 + 1 * (j 1).val = win0_2.index t (1 : Fin 2) * 64 + 1 * (j 1).val; omega
  rw [hl, hr]

end

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v16).slice (win0_2.rect t)).set ↔ _
  rw [View.set_slice_whole, Rect.mem_set_unit]
  exact Iff.rfl

/-- The 10 blocks of 10000 rows tile the 100000 rows: row `r` is in the block of point `r / 10000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region is the matrix product of the two arrays as the region finds them. -/
theorem final (V : (c : Dev nD) → (b : Ref sig .tc) → Buf (Elt Ideal) ((c : Thread nD τ).loc b)) (c : Dev nD) :
    (Gen.dat0 (F := Ideal) V c).arrAt 2 cfg0.N = prod (V c main_arg3) (V c main_arg4) :=
  (dat0 V c).arrAt_eq_of_cover 2 (prod (V c main_arg3) (V c main_arg4)) (fun t _ => flushed_eq V c t) cover

end Cert.KernelIdeal.Linear0

end
-- ==== Proof.Linear1.lean ====
/- Region 1 of @main, the second tiled matrix product: the output array after the region is the matrix product of the
   100000 × 64 array and the 64 × 64 array the region finds, entry by entry. In order: the body's payload at an entry
   (a sum of products over the contraction index), what each grid point writes back (its block of 10000 rows of the
   product), the cover of the 100000 rows by the 10 blocks, and the whole array. -/
import proofs.«118890_j31464930411166_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Linear1

open Cert.KernelIdeal Cert.KernelIdeal.Gen Idealize.ShloMosaic Idealize.ShloMosaic.TcCoe Idealize.SL.Sem
open Idealize.ShloMosaic.Pipeline (Dat)

/-- Row `i 0` of the left factor at contraction index `k`. -/
abbrev lix (i : S100000x64.Idx) (k : Fin 64) : S100000x64.Idx := fun a => match a with
  | ⟨0, _⟩ => ⟨(i 0).val, (i 0).isLt⟩
  | ⟨1, _⟩ => ⟨k.val, k.isLt⟩
/-- Column `i 1` of the right factor at contraction index `k`. -/
abbrev rix (i : S100000x64.Idx) (k : Fin 64) : S64x64.Idx := fun a => match a with
  | ⟨0, _⟩ => ⟨k.val, k.isLt⟩
  | ⟨1, _⟩ => ⟨(i 1).val, (i 1).isLt⟩

/-- The matrix product of a 100000 × 64 array and a 64 × 64 array, entry by entry. -/
def prod (x : S100000x64.Idx → EReal) (w : S64x64.Idx → EReal) : S100000x64.Idx → EReal :=
  fun i => ∑ k : Fin 64, x (lix i k) * w (rix i k)

/-- Inside one block of 10000 rows: row `j 0` of the block's left factor at contraction index `k`. -/
abbrev blockLix (j : S10000x64.Idx) (k : Fin 64) : S10000x64.Idx := fun a => match a with
  | ⟨0, _⟩ => ⟨(j 0).val, (j 0).isLt⟩
  | ⟨1, _⟩ => ⟨k.val, k.isLt⟩
/-- Inside one block: column `j 1` of the right factor at contraction index `k`. -/
abbrev blockRix (j : S10000x64.Idx) (k : Fin 64) : S64x64.Idx := fun a => match a with
  | ⟨0, _⟩ => ⟨k.val, k.isLt⟩
  | ⟨1, _⟩ => ⟨(j 1).val, (j 1).isLt⟩

/-- The product's left operand index at output entry `j` and contraction index `q`: row `j 0`. -/
theorem lhs_row (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and column `q`. -/
theorem lhs_col (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
/-- The right operand index: row `q`. -/
theorem rhs_row (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
/-- … and column `j 1`. -/
theorem rhs_col (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's payload at an entry of the block: rounding to bf16 is the identity at the ideal values, the
    accumulator is zero, so the entry is the sum over the contraction index of the products. -/
theorem payload_apply (x0 : FVec Ideal S10000x64 .f32) (x1 : FVec Ideal S64x64 .f32) (j : S10000x64.Idx) :
    k1_pay1 (F := Ideal) x0 x1 j = ∑ k : Fin 64, x0 (blockLix j k) * x1 (blockRix j k) := by
  unfold k1_pay1
  -- the cast of the loaded block to its own shape is the identity
  rw [shapeCast_self]
  show FloatOps.matmul dot_S10000x64_S64x64_S10000x64_1_0_0_1_n_n none x0 x1 (constant S10000x64 .f32 0x00000000#32) j = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = blockLix j k := funext fun a => Fin.ext (by
    match a with
    | ⟨0, _⟩ => exact lhs_row _ _
    | ⟨1, _⟩ => exact (lhs_col _ _).trans hk)
  have er : dot_S10000x64_S64x64_S10000x64_1_0_0_1_n_n.rhsIdx j ((ValueIdx.contrEquiv1 dot_S10000x64_S64x64_S10000x64_1_0_0_1_n_n 64 rfl rfl).symm k) = blockRix j k := funext fun a => Fin.ext (by
    match a with
    | ⟨0, _⟩ => exact (rhs_row _ _).trans hk
    | ⟨1, _⟩ => exact rhs_col _ _)
  rw [el, er]

theorem zeroOffsets : (![0, 0] : Fin 2 → Nat) = fun _ => 0 := funext fun a => by fin_cases a <;> rfl

/-- The three index maps over the grid: the left factor's block moves with the output's row block, the right factor
    is always its one block, and the output's row block index stays below 10. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every one of the 10 row blocks is some grid point's. -/
theorem index_onto : ∀ q : Fin 10, ∃ t : Fin cfg1.N, win1_2.index t = ![q.val, 0] :=
  (by decide +kernel : ∀ q : Fin 10, ∃ t : Fin grid1.N, win1_2.index t = ![q.val, 0])

section
variable (V : (c : Dev nD) → (b : Ref sig .tc) → Buf (Elt Ideal) ((c : Thread nD τ).loc b))

/-- What grid point `t` writes back is block `t` of the matrix product of the two arrays as the region finds them. -/
theorem flushed_eq (c : Dev nD) (t : Fin cfg1.N) :
    (dat1 (F := Ideal) V c).flushed 2 t = ((cfg1.win 2).blk t).view.read (Elt Ideal) (prod (V c main_v48) (V c main_arg6)) := by
  show (cfg1.win 2).cut (grid1.coords t) ((dat1 V c).after 2 t) = _
  rw [after1_2]
  unfold out1_2
  rw [View.canon_unit_zero zeroOffsets]
  simp only [View.ld_unit_zero (S := S10000x64) zeroOffsets, View.ld_unit_zero (S := S64x64) zeroOffsets]
  obtain ⟨e0, e1, e2, e3, e4, e5⟩ := index_facts t
  funext j
  show k1_pay1 (iblk1 V c 0 t) (iblk1 V c 1 t) j = prod (V c main_v48) (V c main_arg6) (((cfg1.win 2).blk t).view.emb j)
  rw [payload_apply]
  unfold prod
  refine Finset.sum_congr rfl fun k _ => ?_
  have hj0 : (j 0).val < 10000 := (j 0).isLt
  have hj1 : (j 1).val < 64 := (j 1).isLt
  have hk : k.val < 64 := k.isLt
  have hl : iblk1 V c 0 t (blockLix j k) = V c main_v48 (lix (((cfg1.win 2).blk t).view.emb j) k) := by
    show V c main_v48 (((cfg1.win 0).blk t).view.emb (blockLix j k)) = V c main_v48 (lix (((cfg1.win 2).blk t).view.emb j) k)
    refine congrArg _ ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  have hr : iblk1 V c 1 t (blockRix j k) = V c main_arg6 (rix (((cfg1.win 2).blk t).view.emb j) k) := by
    show V c main_arg6 (((cfg1.win 1).blk t).view.emb (blockRix j k)) = V c main_arg6 (rix (((cfg1.win 2).blk t).view.emb j) k)
    refine congrArg _ ?_
    funext a; apply Fin.ext
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega
  rw [hl, hr]

end

/-- An index of the output array is in point `t`'s block iff each coordinate is in the block's range on its axis. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- The 10 blocks of 10000 rows tile the 100000 rows: row `r` is in the block of point `r / 10000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region is the matrix product of the two arrays as the region finds them. -/
theorem final (V : (c : Dev nD) → (b : Ref sig .tc) → Buf (Elt Ideal) ((c : Thread nD τ).loc b)) (c : Dev nD) :
    (Gen.dat1 (F := Ideal) V c).arrAt 2 cfg1.N = prod (V c main_v48) (V c main_arg6) :=
  (dat1 V c).arrAt_eq_of_cover 2 (prod (V c main_v48) (V c main_arg6)) (fun t _ => flushed_eq V c t) cover

end Cert.KernelIdeal.Linear1

end
-- ==== Proof.Head2.lean ====
import proofs.«118890_j31464930411166_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Head2

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The specification: the fused two-layer head, column by column -/

/-- Row `j` of a 64-row array, in the column of the output index `i`. -/
abbrev c64 (j : Fin 64) (i : S1x1007616.Idx) : S64x1007616.Idx := fun a => match a with
  | ⟨0, _⟩ => ⟨j.val, j.isLt⟩
  | ⟨1, _⟩ => ⟨(i 1).val, (i 1).isLt⟩
/-- Row `j` of an 8-row array, in the column of the output index `i`. -/
abbrev c8 (j : Fin 8) (i : S1x1007616.Idx) : S8x1007616.Idx := fun a => match a with
  | ⟨0, _⟩ => ⟨j.val, j.isLt⟩
  | ⟨1, _⟩ => ⟨(i 1).val, (i 1).isLt⟩
/-- Entry `(z, k)` of the second layer's `[1, 64]` weight row. -/
abbrev r1 (z : Fin 1) (k : Fin 64) : S1x64.Idx := fun a => match a with
  | ⟨0, _⟩ => ⟨z.val, z.isLt⟩
  | ⟨1, _⟩ => ⟨k.val, k.isLt⟩
/-- Entry `(k, j)` of the first layer's `[64, 64]` weight matrix. -/
abbrev r2 (k j : Fin 64) : S64x64.Idx := fun a => match a with
  | ⟨0, _⟩ => ⟨k.val, k.isLt⟩
  | ⟨1, _⟩ => ⟨j.val, j.isLt⟩
/-- Entry `(k, j)` of the first layer's `[64, 8]` weight matrix. -/
abbrev r3 (k : Fin 64) (j : Fin 8) : S64x8.Idx := fun a => match a with
  | ⟨0, _⟩ => ⟨k.val, k.isLt⟩
  | ⟨1, _⟩ => ⟨j.val, j.isLt⟩
/-- Entry `k` of the first layer's `[64, 1]` bias column. -/
abbrev r4 (k : Fin 64) : S64x1.Idx := fun a => match a with
  | ⟨0, _⟩ => ⟨k.val, k.isLt⟩
  | ⟨1, _⟩ => ⟨0, Nat.zero_lt_one⟩
/-- The one entry of the second layer's `[1, 1]` bias. -/
abbrev z11 : S1x1.Idx := fun a => match a with
  | ⟨0, _⟩ => ⟨0, Nat.zero_lt_one⟩
  | ⟨1, _⟩ => ⟨0, Nat.zero_lt_one⟩

/-- The head at output column `i`: the logistic of `w2 · max (wa · (d * a) + wb · p + b1) 0 + b2`, every product a sum
    over the contracted coordinate, read in column `i` of `d`, `a`, `p`. -/
def head (d a : S64x1007616.Idx → EReal) (p : S8x1007616.Idx → EReal) (wa : S64x64.Idx → EReal) (wb : S64x8.Idx → EReal)
    (b1 : S64x1.Idx → EReal) (w2 : S1x64.Idx → EReal) (b2 : S1x1.Idx → EReal) : S1x1007616.Idx → EReal :=
  fun i => Ideal.logistic ((∑ k : Fin 64, w2 (r1 0 k) * max ((∑ j : Fin 64, wa (r2 k j) * (d (c64 j i) * a (c64 j i)))
    + (∑ j : Fin 8, wb (r3 k j) * p (c8 j i)) + b1 (r4 k)) 0) + b2 z11)

/-! ## A matrix product into a zero accumulator, read at an index

Each of the three products contracts the left operand's columns with the right operand's rows; at output row `p`,
column `q` it is the sum over the contracted coordinate `j` of left `(p, j)` times right `(j, q)`. -/

theorem matmul_64x64_lhs0 (i : S64x8192.Idx) (q : dot_S64x64_S64x8192_S64x8192_1_0_0_1_n_n.contr.Idx) :
    (dot_S64x64_S64x8192_S64x8192_1_0_0_1_n_n.lhsIdx i q 0).val = (i 0).val := by
  unfold DotDims.lhsIdx
  rw [dif_neg (show ¬(0 : Fin S64x64.rank) ∈ dot_S64x64_S64x8192_S64x8192_1_0_0_1_n_n.lhsBatch by decide), dif_pos (show (0 : Fin S64x64.rank) ∈ dot_S64x64_S64x8192_S64x8192_1_0_0_1_n_n.lhsNonContracting by decide)]
  rfl
theorem matmul_64x64_lhs1 (i : S64x8192.Idx) (q : dot_S64x64_S64x8192_S64x8192_1_0_0_1_n_n.contr.Idx) :
    (dot_S64x64_S64x8192_S64x8192_1_0_0_1_n_n.lhsIdx i q 1).val = (q ⟨0, by decide⟩).val :=
  dot_S64x64_S64x8192_S64x8192_1_0_0_1_n_n.lhsIdx_val_of_single rfl i q
theorem matmul_64x64_rhs0 (i : S64x8192.Idx) (q : dot_S64x64_S64x8192_S64x8192_1_0_0_1_n_n.contr.Idx) :
    (dot_S64x64_S64x8192_S64x8192_1_0_0_1_n_n.rhsIdx i q 0).val = (q ⟨0, by decide⟩).val :=
  dot_S64x64_S64x8192_S64x8192_1_0_0_1_n_n.rhsIdx_val_of_single rfl i q
theorem matmul_64x64_rhs1 (i : S64x8192.Idx) (q : dot_S64x64_S64x8192_S64x8192_1_0_0_1_n_n.contr.Idx) :
    (dot_S64x64_S64x8192_S64x8192_1_0_0_1_n_n.rhsIdx i q 1).val = (i 1).val := by
  unfold DotDims.rhsIdx
  rw [dif_neg (show ¬(1 : Fin S64x8192.rank) ∈ dot_S64x64_S64x8192_S64x8192_1_0_0_1_n_n.rhsBatch by decide), dif_pos (show (1 : Fin S64x8192.rank) ∈ dot_S64x64_S64x8192_S64x8192_1_0_0_1_n_n.rhsNonContracting by decide)]
  rfl
/-- The (64,64) by (64,8192) product at row `p`, column `q`. -/
theorem matmul_64x64_apply {φ₁ φ₂ : FTy} (lhs : FVec Ideal S64x64 φ₁) (rhs : FVec Ideal S64x8192 φ₂) (p : Fin 64) (q : Fin 8192) :
    matmul dot_S64x64_S64x8192_S64x8192_1_0_0_1_n_n none lhs rhs (constant S64x8192 .f32 0x00000000#32) (ix2 p q)
      = ∑ j : Fin 64, lhs (ix2 p j) * rhs (ix2 j q) := by
  simp only [matmul]
  rw [Ideal.matmul_constant_zero_apply, ← Equiv.sum_comp (contrEquiv1 dot_S64x64_S64x8192_S64x8192_1_0_0_1_n_n 64 rfl rfl).symm]
  refine Finset.sum_congr rfl fun k _ => ?_
  have hk := contrEquiv1_symm_val dot_S64x64_S64x8192_S64x8192_1_0_0_1_n_n 64 rfl rfl k
  have el : dot_S64x64_S64x8192_S64x8192_1_0_0_1_n_n.lhsIdx (ix2 p q) ((contrEquiv1 dot_S64x64_S64x8192_S64x8192_1_0_0_1_n_n 64 rfl rfl).symm k) = ix2 p k := funext fun a => Fin.ext (by
    match a with
    | ⟨0, _⟩ => exact matmul_64x64_lhs0 _ _
    | ⟨1, _⟩ => exact (matmul_64x64_lhs1 _ _).trans hk)
  have er : dot_S64x64_S64x8192_S64x8192_1_0_0_1_n_n.rhsIdx (ix2 p q) ((contrEquiv1 dot_S64x64_S64x8192_S64x8192_1_0_0_1_n_n 64 rfl rfl).symm k) = ix2 k q := funext fun a => Fin.ext (by
    match a with
    | ⟨0, _⟩ => exact (matmul_64x64_rhs0 _ _).trans hk
    | ⟨1, _⟩ => exact matmul_64x64_rhs1 _ _)
  rw [el, er]

theorem matmul_64x8_lhs0 (i : S64x8192.Idx) (q : dot_S64x8_S8x8192_S64x8192_1_0_0_1_n_n.contr.Idx) :
    (dot_S64x8_S8x8192_S64x8192_1_0_0_1_n_n.lhsIdx i q 0).val = (i 0).val := by
  unfold DotDims.lhsIdx
  rw [dif_neg (show ¬(0 : Fin S64x8.rank) ∈ dot_S64x8_S8x8192_S64x8192_1_0_0_1_n_n.lhsBatch by decide), dif_pos (show (0 : Fin S64x8.rank) ∈ dot_S64x8_S8x8192_S64x8192_1_0_0_1_n_n.lhsNonContracting by decide)]
  rfl
theorem matmul_64x8_lhs1 (i : S64x8192.Idx) (q : dot_S64x8_S8x8192_S64x8192_1_0_0_1_n_n.contr.Idx) :
    (dot_S64x8_S8x8192_S64x8192_1_0_0_1_n_n.lhsIdx i q 1).val = (q ⟨0, by decide⟩).val :=
  dot_S64x8_S8x8192_S64x8192_1_0_0_1_n_n.lhsIdx_val_of_single rfl i q
theorem matmul_64x8_rhs0 (i : S64x8192.Idx) (q : dot_S64x8_S8x8192_S64x8192_1_0_0_1_n_n.contr.Idx) :
    (dot_S64x8_S8x8192_S64x8192_1_0_0_1_n_n.rhsIdx i q 0).val = (q ⟨0, by decide⟩).val :=
  dot_S64x8_S8x8192_S64x8192_1_0_0_1_n_n.rhsIdx_val_of_single rfl i q
theorem matmul_64x8_rhs1 (i : S64x8192.Idx) (q : dot_S64x8_S8x8192_S64x8192_1_0_0_1_n_n.contr.Idx) :
    (dot_S64x8_S8x8192_S64x8192_1_0_0_1_n_n.rhsIdx i q 1).val = (i 1).val := by
  unfold DotDims.rhsIdx
  rw [dif_neg (show ¬(1 : Fin S8x8192.rank) ∈ dot_S64x8_S8x8192_S64x8192_1_0_0_1_n_n.rhsBatch by decide), dif_pos (show (1 : Fin S8x8192.rank) ∈ dot_S64x8_S8x8192_S64x8192_1_0_0_1_n_n.rhsNonContracting by decide)]
  rfl
/-- The (64,8) by (8,8192) product at row `p`, column `q`. -/
theorem matmul_64x8_apply {φ₁ φ₂ : FTy} (lhs : FVec Ideal S64x8 φ₁) (rhs : FVec Ideal S8x8192 φ₂) (p : Fin 64) (q : Fin 8192) :
    matmul dot_S64x8_S8x8192_S64x8192_1_0_0_1_n_n none lhs rhs (constant S64x8192 .f32 0x00000000#32) (ix2 p q)
      = ∑ j : Fin 8, lhs (ix2 p j) * rhs (ix2 j q) := by
  simp only [matmul]
  rw [Ideal.matmul_constant_zero_apply, ← Equiv.sum_comp (contrEquiv1 dot_S64x8_S8x8192_S64x8192_1_0_0_1_n_n 8 rfl rfl).symm]
  refine Finset.sum_congr rfl fun k _ => ?_
  have hk := contrEquiv1_symm_val dot_S64x8_S8x8192_S64x8192_1_0_0_1_n_n 8 rfl rfl k
  have el : dot_S64x8_S8x8192_S64x8192_1_0_0_1_n_n.lhsIdx (ix2 p q) ((contrEquiv1 dot_S64x8_S8x8192_S64x8192_1_0_0_1_n_n 8 rfl rfl).symm k) = ix2 p k := funext fun a => Fin.ext (by
    match a with
    | ⟨0, _⟩ => exact matmul_64x8_lhs0 _ _
    | ⟨1, _⟩ => exact (matmul_64x8_lhs1 _ _).trans hk)
  have er : dot_S64x8_S8x8192_S64x8192_1_0_0_1_n_n.rhsIdx (ix2 p q) ((contrEquiv1 dot_S64x8_S8x8192_S64x8192_1_0_0_1_n_n 8 rfl rfl).symm k) = ix2 k q := funext fun a => Fin.ext (by
    match a with
    | ⟨0, _⟩ => exact (matmul_64x8_rhs0 _ _).trans hk
    | ⟨1, _⟩ => exact matmul_64x8_rhs1 _ _)
  rw [el, er]

theorem matmul_1x64_lhs0 (i : S1x8192.Idx) (q : dot_S1x64_S64x8192_S1x8192_1_0_0_1_n_n.contr.Idx) :
    (dot_S1x64_S64x8192_S1x8192_1_0_0_1_n_n.lhsIdx i q 0).val = (i 0).val := by
  unfold DotDims.lhsIdx
  rw [dif_neg (show ¬(0 : Fin S1x64.rank) ∈ dot_S1x64_S64x8192_S1x8192_1_0_0_1_n_n.lhsBatch by decide), dif_pos (show (0 : Fin S1x64.rank) ∈ dot_S1x64_S64x8192_S1x8192_1_0_0_1_n_n.lhsNonContracting by decide)]
  rfl
theorem matmul_1x64_lhs1 (i : S1x8192.Idx) (q : dot_S1x64_S64x8192_S1x8192_1_0_0_1_n_n.contr.Idx) :
    (dot_S1x64_S64x8192_S1x8192_1_0_0_1_n_n.lhsIdx i q 1).val = (q ⟨0, by decide⟩).val :=
  dot_S1x64_S64x8192_S1x8192_1_0_0_1_n_n.lhsIdx_val_of_single rfl i q
theorem matmul_1x64_rhs0 (i : S1x8192.Idx) (q : dot_S1x64_S64x8192_S1x8192_1_0_0_1_n_n.contr.Idx) :
    (dot_S1x64_S64x8192_S1x8192_1_0_0_1_n_n.rhsIdx i q 0).val = (q ⟨0, by decide⟩).val :=
  dot_S1x64_S64x8192_S1x8192_1_0_0_1_n_n.rhsIdx_val_of_single rfl i q
theorem matmul_1x64_rhs1 (i : S1x8192.Idx) (q : dot_S1x64_S64x8192_S1x8192_1_0_0_1_n_n.contr.Idx) :
    (dot_S1x64_S64x8192_S1x8192_1_0_0_1_n_n.rhsIdx i q 1).val = (i 1).val := by
  unfold DotDims.rhsIdx
  rw [dif_neg (show ¬(1 : Fin S64x8192.rank) ∈ dot_S1x64_S64x8192_S1x8192_1_0_0_1_n_n.rhsBatch by decide), dif_pos (show (1 : Fin S64x8192.rank) ∈ dot_S1x64_S64x8192_S1x8192_1_0_0_1_n_n.rhsNonContracting by decide)]
  rfl
/-- The (1,64) by (64,8192) product at row `p`, column `q`. -/
theorem matmul_1x64_apply {φ₁ φ₂ : FTy} (lhs : FVec Ideal S1x64 φ₁) (rhs : FVec Ideal S64x8192 φ₂) (p : Fin 1) (q : Fin 8192) :
    matmul dot_S1x64_S64x8192_S1x8192_1_0_0_1_n_n none lhs rhs (constant S1x8192 .f32 0x00000000#32) (ix2 p q)
      = ∑ j : Fin 64, lhs (ix2 p j) * rhs (ix2 j q) := by
  simp only [matmul]
  rw [Ideal.matmul_constant_zero_apply, ← Equiv.sum_comp (contrEquiv1 dot_S1x64_S64x8192_S1x8192_1_0_0_1_n_n 64 rfl rfl).symm]
  refine Finset.sum_congr rfl fun k _ => ?_
  have hk := contrEquiv1_symm_val dot_S1x64_S64x8192_S1x8192_1_0_0_1_n_n 64 rfl rfl k
  have el : dot_S1x64_S64x8192_S1x8192_1_0_0_1_n_n.lhsIdx (ix2 p q) ((contrEquiv1 dot_S1x64_S64x8192_S1x8192_1_0_0_1_n_n 64 rfl rfl).symm k) = ix2 p k := funext fun a => Fin.ext (by
    match a with
    | ⟨0, _⟩ => exact matmul_1x64_lhs0 _ _
    | ⟨1, _⟩ => exact (matmul_1x64_lhs1 _ _).trans hk)
  have er : dot_S1x64_S64x8192_S1x8192_1_0_0_1_n_n.rhsIdx (ix2 p q) ((contrEquiv1 dot_S1x64_S64x8192_S1x8192_1_0_0_1_n_n 64 rfl rfl).symm k) = ix2 k q := funext fun a => Fin.ext (by
    match a with
    | ⟨0, _⟩ => exact (matmul_1x64_rhs0 _ _).trans hk
    | ⟨1, _⟩ => exact matmul_1x64_rhs1 _ _)
  rw [el, er]

/-! ## A column and a single entry, broadcast along the lanes -/

/-- A `[64, 1]` column broadcast to `[64, 8192]` reads, at `(p, q)`, the column's entry of row `p`. -/
theorem broadcastTo_col64_apply {α : Type} (v : S64x1.Idx → α) (h : S64x1.Broadcasts S64x8192) (p : Fin 64) (q : Fin 8192) :
    broadcastTo S64x8192 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A `[1, 1]` array broadcast to `[1, 8192]` reads its one entry everywhere. -/
theorem broadcastTo_one_apply {α : Type} (v : S1x1.Idx → α) (h : S1x1.Broadcasts S1x8192) (p : Fin 1) (q : Fin 8192) :
    broadcastTo S1x8192 v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-! ## The body's payload at an index -/

/-- The fused head's payload at lane `q`: the logistic of the second layer's product with the rectified first
    layer (two products and a column bias), plus the scalar bias. Format changes and same-shape casts are the
    identity at the ideal values. -/
theorem payload_apply (v0 v3 : Vec Ideal S64x8192 .bf16) (v8 : Vec Ideal S8x8192 .bf16) (v10 : Vec Ideal S64x64 .bf16)
    (v13 : Vec Ideal S64x8 .bf16) (v17 : Vec Ideal S64x1 .f32) (v24 : Vec Ideal S1x64 .bf16) (v27 : Vec Ideal S1x1 .f32)
    (z : Fin 1) (q : Fin 8192) :
    k2_pay1 (F := Ideal) v0 v3 v8 v10 v13 v17 v24 v27 (ix2 z q)
      = Ideal.logistic ((∑ k : Fin 64, v24 (ix2 z k) * max ((∑ j : Fin 64, v10 (ix2 k j) * (v0 (ix2 j q) * v3 (ix2 j q)))
          + (∑ j : Fin 8, v13 (ix2 k j) * v8 (ix2 j q)) + v17 (ix2 k (0 : Fin 1))) 0) + v27 (ix2 (0 : Fin 1) (0 : Fin 1))) := by
  unfold k2_pay1
  simp only [shapeCast_self]
  show Ideal.logistic (matmul (F := Ideal) dot_S1x64_S64x8192_S1x8192_1_0_0_1_n_n none v24 _ (constant (F := Ideal) S1x8192 .f32 0x00000000#32) (ix2 z q)
      + broadcastTo S1x8192 v27 broadcasts_S1x1_S1x8192 (ix2 z q)) = _
  rw [matmul_1x64_apply, broadcastTo_one_apply]
  refine congrArg (fun x => Ideal.logistic (x + _)) (Finset.sum_congr rfl fun k _ => ?_)
  show v24 (ix2 z k) * max (matmul (F := Ideal) dot_S64x64_S64x8192_S64x8192_1_0_0_1_n_n none v10 _ (constant (F := Ideal) S64x8192 .f32 0x00000000#32) (ix2 k q)
      + matmul (F := Ideal) dot_S64x8_S8x8192_S64x8192_1_0_0_1_n_n none v13 v8 (constant (F := Ideal) S64x8192 .f32 0x00000000#32) (ix2 k q)
      + broadcastTo S64x8192 v17 broadcasts_S64x1_S64x8192 (ix2 k q)) (Ideal.ofBits .f32 0x00000000#32) = _
  rw [matmul_64x64_apply, matmul_64x8_apply, broadcastTo_col64_apply, Ideal.ofBits_zero_f32]
  rfl

/-- The same at any index of the `[1, 8192]` block whose coordinates are `z` and `q`. -/
theorem payload_at (v0 v3 : Vec Ideal S64x8192 .bf16) (v8 : Vec Ideal S8x8192 .bf16) (v10 : Vec Ideal S64x64 .bf16)
    (v13 : Vec Ideal S64x8 .bf16) (v17 : Vec Ideal S64x1 .f32) (v24 : Vec Ideal S1x64 .bf16) (v27 : Vec Ideal S1x1 .f32)
    (i : S1x8192.Idx) (z : Fin 1) (q : Fin 8192) (hz : (i 0).val = z.val) (hq : (i 1).val = q.val) :
    k2_pay1 (F := Ideal) v0 v3 v8 v10 v13 v17 v24 v27 i
      = Ideal.logistic ((∑ k : Fin 64, v24 (ix2 z k) * max ((∑ j : Fin 64, v10 (ix2 k j) * (v0 (ix2 j q) * v3 (ix2 j q)))
          + (∑ j : Fin 8, v13 (ix2 k j) * v8 (ix2 j q)) + v17 (ix2 k (0 : Fin 1))) 0) + v27 (ix2 (0 : Fin 1) (0 : Fin 1))) := by
  have e : i = ix2 z q := funext fun a => Fin.ext (by
    match a with
    | ⟨0, _⟩ => exact hz
    | ⟨1, _⟩ => exact hq)
  rw [e]
  exact payload_apply v0 v3 v8 v10 v13 v17 v24 v27 z q

/-! ## The index maps over the grid -/

theorem zero_offsets : (![0, 0] : Fin 2 → Nat) = fun _ => 0 := funext fun a => by fin_cases a <;> rfl

/-- The printed index maps, decided over the 123 grid points: the three streamed inputs and the output sit at block
    `(0, t)` at point `t`; the five parameter windows stay at block `(0, 0)`. -/
theorem index_facts : ∀ t : Fin cfg2.N,
    win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = t.val
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = t.val :=
  (by decide +kernel : ∀ t : Fin grid2.N, _)

/-! ## What a grid point writes back, and the whole array -/

variable (V : (c : Dev nD) → (b : Ref sig .tc) → Buf (Elt Ideal) ((c : Thread nD τ).loc b))

/-- What point `t` writes back is block `t` of the head of the arrays as the region finds them: every input block is
    read where the output's rectangle says (a block's coordinate is its index times its size plus the coordinate
    inside), the streamed inputs in the output's column, the parameters whole. -/
theorem flushed_eq (c : Dev nD) (t : Fin cfg2.N) :
    (dat2 (F := Ideal) V c).flushed 8 t = ((cfg2.win 8).blk t).view.read (Elt Ideal)
      (head (V c main_v101) (V c main_v104) (V c main_v107) (V c main_v110) (V c main_v113) (V c main_v116) (V c main_v115) (V c main_v117)) := by
  show (cfg2.win 8).cut (grid2.coords t) ((dat2 V c).after 8 t) = _
  rw [after2_8]
  unfold out2_8
  rw [View.canon_unit_zero zero_offsets]
  simp only [View.ld_unit_zero (S := S64x8192) zero_offsets, View.ld_unit_zero (S := S8x8192) zero_offsets,
    View.ld_unit_zero (S := S64x64) zero_offsets, View.ld_unit_zero (S := S64x8) zero_offsets,
    View.ld_unit_zero (S := S64x1) zero_offsets, View.ld_unit_zero (S := S1x64) zero_offsets,
    View.ld_unit_zero (S := S1x1) zero_offsets]
  obtain ⟨e00, e01, e10, e11, e20, e21, e30, e31, e40, e41, e50, e51, e60, e61, e70, e71, e80, e81⟩ := index_facts t
  funext j
  have hj0 : (j 0).val < 1 := (j 0).isLt
  have hj1 : (j 1).val < 8192 := (j 1).isLt
  show k2_pay1 (F := Ideal) _ _ _ _ _ _ _ _ _ = _
  refine (payload_at _ _ _ _ _ _ _ _ _ (⟨(j 0).val, hj0⟩ : Fin 1) (⟨(j 1).val, hj1⟩ : Fin 8192) rfl rfl).trans ?_
  rw [View.read_apply]
  unfold head
  refine congrArg Ideal.logistic (congrArg₂ (· + ·) (Finset.sum_congr rfl fun k _ => congrArg₂ (· * ·) ?_
    (congrArg (max · 0) (congrArg₂ (· + ·) (congrArg₂ (· + ·)
      (Finset.sum_congr rfl fun j' _ => congrArg₂ (· * ·) ?_ (congrArg₂ (· * ·) ?_ ?_))
      (Finset.sum_congr rfl fun j' _ => congrArg₂ (· * ·) ?_ ?_)) ?_))) ?_)
  · show V c main_v115 _ = V c main_v115 _
    refine congrArg (V c main_v115) (funext fun a => Fin.ext ?_)
    match a with
    | ⟨0, _⟩ => show win2_6.index t (0 : Fin 2) * 1 + 1 * (j 0).val = 0; omega
    | ⟨1, _⟩ => show win2_6.index t (1 : Fin 2) * 64 + 1 * k.val = k.val; omega
  · show V c main_v110 _ = V c main_v110 _
    refine congrArg (V c main_v110) (funext fun a => Fin.ext ?_)
    match a with
    | ⟨0, _⟩ => show win2_3.index t (0 : Fin 2) * 64 + 1 * k.val = k.val; omega
    | ⟨1, _⟩ => show win2_3.index t (1 : Fin 2) * 64 + 1 * j'.val = j'.val; omega
  · show V c main_v101 _ = V c main_v101 _
    refine congrArg (V c main_v101) (funext fun a => Fin.ext ?_)
    match a with
    | ⟨0, _⟩ => show win2_0.index t (0 : Fin 2) * 64 + 1 * j'.val = j'.val; omega
    | ⟨1, _⟩ => show win2_0.index t (1 : Fin 2) * 8192 + 1 * (j 1).val = win2_8.index t (1 : Fin 2) * 8192 + 1 * (j 1).val; omega
  · show V c main_v104 _ = V c main_v104 _
    refine congrArg (V c main_v104) (funext fun a => Fin.ext ?_)
    match a with
    | ⟨0, _⟩ => show win2_1.index t (0 : Fin 2) * 64 + 1 * j'.val = j'.val; omega
    | ⟨1, _⟩ => show win2_1.index t (1 : Fin 2) * 8192 + 1 * (j 1).val = win2_8.index t (1 : Fin 2) * 8192 + 1 * (j 1).val; omega
  · show V c main_v113 _ = V c main_v113 _
    refine congrArg (V c main_v113) (funext fun a => Fin.ext ?_)
    match a with
    | ⟨0, _⟩ => show win2_4.index t (0 : Fin 2) * 64 + 1 * k.val = k.val; omega
    | ⟨1, _⟩ => show win2_4.index t (1 : Fin 2) * 8 + 1 * j'.val = j'.val; omega
  · show V c main_v107 _ = V c main_v107 _
    refine congrArg (V c main_v107) (funext fun a => Fin.ext ?_)
    match a with
    | ⟨0, _⟩ => show win2_2.index t (0 : Fin 2) * 8 + 1 * j'.val = j'.val; omega
    | ⟨1, _⟩ => show win2_2.index t (1 : Fin 2) * 8192 + 1 * (j 1).val = win2_8.index t (1 : Fin 2) * 8192 + 1 * (j 1).val; omega
  · show V c main_v116 _ = V c main_v116 _
    refine congrArg (V c main_v116) (funext fun a => Fin.ext ?_)
    match a with
    | ⟨0, _⟩ => show win2_5.index t (0 : Fin 2) * 64 + 1 * k.val = k.val; omega
    | ⟨1, _⟩ => show win2_5.index t (1 : Fin 2) * 1 + 1 * 0 = 0; omega
  · show V c main_v117 _ = V c main_v117 _
    refine congrArg (V c main_v117) (funext fun a => Fin.ext ?_)
    match a with
    | ⟨0, _⟩ => show win2_7.index t (0 : Fin 2) * 1 + 1 * 0 = 0; omega
    | ⟨1, _⟩ => show win2_7.index t (1 : Fin 2) * 1 + 1 * 0 = 0; omega

/-- An index of the output array is in point `t`'s block iff each coordinate is in the block's range on its axis. -/
theorem mem_block (t : Fin cfg2.N) (i : S1x1007616.Idx) :
    i ∈ ((cfg2.win 8).blk t).view.set ↔ ∀ a : Fin 2, win2_8.index t a * S1x8192.size a ≤ (i a).val ∧ (i a).val < win2_8.index t a * S1x8192.size a + S1x8192.size a := by
  show i ∈ ((View.whole main_v118).slice (win2_8.rect t)).set ↔ _
  rw [View.set_slice_whole, Rect.mem_set_unit]
  exact Iff.rfl

/-- The output's blocks tile its array: column `q` is in the block of point `q / 8192` (123 × 8192 = 1007616). -/
theorem covered (i : S1x1007616.Idx) :
    ∃ t : Fin cfg2.N, (cfg2.win 8).flush t = true ∧ i ∈ ((cfg2.win 8).blk t).view.set := by
  have hi0 : (i 0).val < 1 := (i 0).isLt
  have hi1 : (i 1).val < 1007616 := (i 1).isLt
  have hN : cfg2.N = 123 := N_2
  obtain ⟨t, ht⟩ : ∃ t : Fin cfg2.N, t.val = (i 1).val / 8192 := ⟨⟨(i 1).val / 8192, by rw [hN]; omega⟩, rfl⟩
  obtain ⟨e00, e01, e10, e11, e20, e21, e30, e31, e40, e41, e50, e51, e60, e61, e70, e71, e80, e81⟩ := index_facts t
  refine ⟨t, flush2_8 t, ?_⟩
  rw [mem_block]
  intro a
  match a with
  | ⟨0, _⟩ => show win2_8.index t (0 : Fin 2) * 1 ≤ (i 0).val ∧ (i 0).val < win2_8.index t (0 : Fin 2) * 1 + 1; omega
  | ⟨1, _⟩ => show win2_8.index t (1 : Fin 2) * 8192 ≤ (i 1).val ∧ (i 1).val < win2_8.index t (1 : Fin 2) * 8192 + 8192; omega

/-- THE OUTPUT ARRAY after the region: the head of the arrays as the region finds them, at every index. -/
theorem final (c : Dev nD) :
    (dat2 (F := Ideal) V c).arrAt 8 cfg2.N
      = head (V c main_v101) (V c main_v104) (V c main_v107) (V c main_v110) (V c main_v113) (V c main_v116) (V c main_v115) (V c main_v117) :=
  (dat2 (F := Ideal) V c).arrAt_eq_of_cover 8 _ (fun t _ => flushed_eq V c t) covered

end Cert.KernelIdeal.Head2

end
-- ==== Proof.HeadInputs.lean ====
import proofs.«118890_j31464930411166_1_alg».proof.Proof.Gen.KernelIdeal.Frame
import proofs.«118890_j31464930411166_1_alg».proof.Proof.Head2
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.HeadInputs

open Cert.KernelIdeal Cert.KernelIdeal.Gen Idealize.ShloMosaic Idealize.ShloMosaic.TcCoe Idealize.SL.Sem
open Idealize.ShloMosaic.ValueIdx
open scoped BigOperators

/-! ## Indices of the host arrays -/

/-- Entry `(j, k)` of the stacked `[72, 64]` first-layer weights. -/
abbrev w1ix (j : Fin 72) (k : Fin 64) : S72x64.Idx := fun a => match a with
  | ⟨0, _⟩ => ⟨j.val, j.isLt⟩
  | ⟨1, _⟩ => ⟨k.val, k.isLt⟩
/-- Entry `(k, 0)` of the `[64, 1]` second-layer weights. -/
abbrev w2ix (k : Fin 64) : S64x1.Idx := fun a => match a with
  | ⟨0, _⟩ => ⟨k.val, k.isLt⟩
  | ⟨1, _⟩ => ⟨0, Nat.zero_lt_one⟩
/-- Entry `k` of the `[64]` first-layer bias. -/
abbrev vix (k : Fin 64) : S64.Idx := fun a => match a with
  | ⟨0, _⟩ => ⟨k.val, k.isLt⟩
/-- The one entry of the `[1]` second-layer bias. -/
abbrev zix : S1.Idx := fun a => match a with
  | ⟨0, _⟩ => ⟨0, Nat.zero_lt_one⟩
/-- Row `i`, column `j` of a `[1000000, 64]` array. -/
abbrev pix (i : S1000000.Idx) (j : Fin 64) : S1000000x64.Idx := fun a => match a with
  | ⟨0, _⟩ => ⟨(i 0).val, (i 0).isLt⟩
  | ⟨1, _⟩ => ⟨j.val, j.isLt⟩
/-- Row `i`, column `j` of a `[1000000, 8]` array. -/
abbrev qix (i : S1000000.Idx) (j : Fin 8) : S1000000x8.Idx := fun a => match a with
  | ⟨0, _⟩ => ⟨(i 0).val, (i 0).isLt⟩
  | ⟨1, _⟩ => ⟨j.val, j.isLt⟩

/-! ## The layout operations around the head, read at an index -/

/-- A `[1000000, 64]` array padded below to 1007616 rows and transposed reads, at row `j` and a column below
    1000000, the array's entry with row and column exchanged: the padding is never met. -/
theorem padT64_apply (X : FVec Ideal S1000000x64 .f32) (z : S_.Idx → EReal) (j : Fin 64) (I : S1x1007616.Idx) (i : S1000000.Idx)
    (hI : (I 1).val = (i 0).val) :
    transpose S64x1007616 [1, 0] (pad S1007616x64 ![0, 0] ![7616, 0] ![0, 0] (truncf (F := Ideal) .bf16 X bitsLt_bf16_f32) z
      pads_S1000000x64_S1007616x64_076160_000 h_S_) transposes_S1007616x64_S64x1007616_1_0 (Head2.c64 j I) = X (pix i j) := by
  have hlt : (i 0).val < 1000000 := (i 0).isLt
  refine (transpose_apply [1, 0] _ transposes_S1007616x64_S64x1007616_1_0 (Head2.c64 j I)
    (ix2 (⟨(i 0).val, by omega⟩ : Fin 1007616) j) (fun b => match b with
      | ⟨0, _⟩ => rfl
      | ⟨1, _⟩ => hI.symm)).trans ?_
  exact pad_apply_of_inside ![0, 0] ![7616, 0] ![0, 0] _ z pads_S1000000x64_S1007616x64_076160_000 h_S_ _ (pix i j) (fun a => match a with
      | ⟨0, _⟩ => (show (i 0).val = 0 + (i 0).val * (0 + 1) by omega)
      | ⟨1, _⟩ => (show j.val = 0 + j.val * (0 + 1) by omega))

/-- A `[1000000, 8]` array padded below to 1007616 rows and transposed reads, at row `j` and a column below
    1000000, the array's entry with row and column exchanged: the padding is never met. -/
theorem padT8_apply (X : FVec Ideal S1000000x8 .f32) (z : S_.Idx → EReal) (j : Fin 8) (I : S1x1007616.Idx) (i : S1000000.Idx)
    (hI : (I 1).val = (i 0).val) :
    transpose S8x1007616 [1, 0] (pad S1007616x8 ![0, 0] ![7616, 0] ![0, 0] (truncf (F := Ideal) .bf16 X bitsLt_bf16_f32) z
      pads_S1000000x8_S1007616x8_076160_000 h_S_) transposes_S1007616x8_S8x1007616_1_0 (Head2.c8 j I) = X (qix i j) := by
  have hlt : (i 0).val < 1000000 := (i 0).isLt
  refine (transpose_apply [1, 0] _ transposes_S1007616x8_S8x1007616_1_0 (Head2.c8 j I)
    (ix2 (⟨(i 0).val, by omega⟩ : Fin 1007616) j) (fun b => match b with
      | ⟨0, _⟩ => rfl
      | ⟨1, _⟩ => hI.symm)).trans ?_
  exact pad_apply_of_inside ![0, 0] ![7616, 0] ![0, 0] _ z pads_S1000000x8_S1007616x8_076160_000 h_S_ _ (qix i j) (fun a => match a with
      | ⟨0, _⟩ => (show (i 0).val = 0 + (i 0).val * (0 + 1) by omega)
      | ⟨1, _⟩ => (show j.val = 0 + j.val * (0 + 1) by omega))

/-- The first 64 rows of the stacked weights, transposed: entry `(k, j)` is the stacked entry `(j, k)`. -/
theorem wa_apply (W8 : FVec Ideal S72x64 .f32) (k j : Fin 64) :
    truncf (F := Ideal) .bf16 (transpose S64x64 [1, 0] (extractStridedSlice S64x64 ![0, 0] W8 slices_S72x64_S64x64_0_0)
      transposes_S64x64_S64x64_1_0) bitsLt_bf16_f32 (Head2.r2 k j) = W8 (w1ix (Fin.castAdd 8 j) k) := by
  show transpose S64x64 [1, 0] (extractStridedSlice S64x64 ![0, 0] W8 slices_S72x64_S64x64_0_0) transposes_S64x64_S64x64_1_0 (Head2.r2 k j) = _
  refine (transpose_apply [1, 0] _ transposes_S64x64_S64x64_1_0 (Head2.r2 k j) (ix2 j k) (fun b => match b with
      | ⟨0, _⟩ => rfl
      | ⟨1, _⟩ => rfl)).trans ?_
  exact extractStridedSlice_apply (s := S72x64) (t := S64x64) ![0, 0] W8 slices_S72x64_S64x64_0_0 (ix2 j k) (w1ix (Fin.castAdd 8 j) k) (fun a => match a with
      | ⟨0, _⟩ => (show j.val = 0 + j.val by omega)
      | ⟨1, _⟩ => (show k.val = 0 + k.val by omega))

/-- The last 8 rows of the stacked weights, transposed: entry `(k, j)` is the stacked entry `(64 + j, k)`. -/
theorem wb_apply (W8 : FVec Ideal S72x64 .f32) (k : Fin 64) (j : Fin 8) :
    truncf (F := Ideal) .bf16 (transpose S64x8 [1, 0] (extractStridedSlice S8x64 ![64, 0] W8 slices_S72x64_S8x64_64_0)
      transposes_S8x64_S64x8_1_0) bitsLt_bf16_f32 (Head2.r3 k j) = W8 (w1ix (Fin.natAdd 64 j) k) := by
  show transpose S64x8 [1, 0] (extractStridedSlice S8x64 ![64, 0] W8 slices_S72x64_S8x64_64_0) transposes_S8x64_S64x8_1_0 (Head2.r3 k j) = _
  refine (transpose_apply [1, 0] _ transposes_S8x64_S64x8_1_0 (Head2.r3 k j) (ix2 j k) (fun b => match b with
      | ⟨0, _⟩ => rfl
      | ⟨1, _⟩ => rfl)).trans ?_
  exact extractStridedSlice_apply (s := S72x64) (t := S8x64) ![64, 0] W8 slices_S72x64_S8x64_64_0 (ix2 j k) (w1ix (Fin.natAdd 64 j) k) (fun a => match a with
      | ⟨0, _⟩ => (show 64 + j.val = 64 + j.val from rfl)
      | ⟨1, _⟩ => (show k.val = 0 + k.val by omega))

/-- The `[64, 1]` second-layer weights transposed to a row: entry `(z, k)` is the column's entry `k`. -/
theorem w2_apply (W10 : FVec Ideal S64x1 .f32) (z : Fin 1) (k : Fin 64) :
    truncf (F := Ideal) .bf16 (transpose S1x64 [1, 0] W10 transposes_S64x1_S1x64_1_0) bitsLt_bf16_f32 (Head2.r1 z k) = W10 (w2ix k) := by
  show transpose S1x64 [1, 0] W10 transposes_S64x1_S1x64_1_0 (Head2.r1 z k) = _
  have hz : z.val = 0 := by omega
  exact transpose_apply [1, 0] W10 transposes_S64x1_S1x64_1_0 (Head2.r1 z k) (w2ix k) (fun b => match b with
      | ⟨0, _⟩ => hz.symm
      | ⟨1, _⟩ => rfl)

/-- The `[64]` bias cast to a column: entry `(k, 0)` is the bias's entry `k`. -/
theorem b1_apply (b9 : S64.Idx → EReal) (k : Fin 64) :
    shapeCast S64x1 b9 shapeCasts_S64_S64x1 (Head2.r4 k) = b9 (vix k) :=
  shapeCast_apply b9 shapeCasts_S64_S64x1 (Head2.r4 k) (vix k) (by
    rw [Shape.rowMajor_val_two, Shape.rowMajor_val_one]
    show k.val = k.val * 1 + 0
    omega)

/-- The `[1]` bias cast to `[1, 1]`: its one entry. -/
theorem b2_apply (b11 : S1.Idx → EReal) :
    shapeCast S1x1 b11 shapeCasts_S1_S1x1 Head2.z11 = b11 zix :=
  shapeCast_apply b11 shapeCasts_S1_S1x1 Head2.z11 zix (by
    rw [Shape.rowMajor_val_two, Shape.rowMajor_val_one]
    show 0 = 0 * 1 + 0
    omega)

/-! ## The region's result, cut back to the first 1000000 columns and flattened -/

/-- The output of the fused head on the padded, transposed inputs, sliced to its first 1000000 columns and cast to
    a vector, at entry `i`: the head of row `i` of the unpadded arrays and of the weights as the host holds them. -/
theorem out_apply (D A : FVec Ideal S1000000x64 .f32) (P : FVec Ideal S1000000x8 .f32) (W8 : FVec Ideal S72x64 .f32)
    (b9 : S64.Idx → EReal) (W10 : FVec Ideal S64x1 .f32) (b11 : S1.Idx → EReal) (zD zA zP : S_.Idx → EReal) (i : S1000000.Idx) :
    shapeCast S1000000 (extractStridedSlice S1x1000000 ![0, 0]
      (Head2.head
        (transpose S64x1007616 [1, 0] (pad S1007616x64 ![0, 0] ![7616, 0] ![0, 0] (truncf (F := Ideal) .bf16 D bitsLt_bf16_f32) zD
          pads_S1000000x64_S1007616x64_076160_000 h_S_) transposes_S1007616x64_S64x1007616_1_0)
        (transpose S64x1007616 [1, 0] (pad S1007616x64 ![0, 0] ![7616, 0] ![0, 0] (truncf (F := Ideal) .bf16 A bitsLt_bf16_f32) zA
          pads_S1000000x64_S1007616x64_076160_000 h_S_) transposes_S1007616x64_S64x1007616_1_0)
        (transpose S8x1007616 [1, 0] (pad S1007616x8 ![0, 0] ![7616, 0] ![0, 0] (truncf (F := Ideal) .bf16 P bitsLt_bf16_f32) zP
          pads_S1000000x8_S1007616x8_076160_000 h_S_) transposes_S1007616x8_S8x1007616_1_0)
        (truncf (F := Ideal) .bf16 (transpose S64x64 [1, 0] (extractStridedSlice S64x64 ![0, 0] W8 slices_S72x64_S64x64_0_0)
          transposes_S64x64_S64x64_1_0) bitsLt_bf16_f32)
        (truncf (F := Ideal) .bf16 (transpose S64x8 [1, 0] (extractStridedSlice S8x64 ![64, 0] W8 slices_S72x64_S8x64_64_0)
          transposes_S8x64_S64x8_1_0) bitsLt_bf16_f32)
        (shapeCast S64x1 b9 shapeCasts_S64_S64x1)
        (truncf (F := Ideal) .bf16 (transpose S1x64 [1, 0] W10 transposes_S64x1_S1x64_1_0) bitsLt_bf16_f32)
        (shapeCast S1x1 b11 shapeCasts_S1_S1x1))
      slices_S1x1007616_S1x1000000_0_0) shapeCasts_S1x1000000_S1000000 i
    = Ideal.logistic ((∑ k : Fin 64, W10 (w2ix k) * max ((∑ j : Fin 64, W8 (w1ix (Fin.castAdd 8 j) k) * (D (pix i j) * A (pix i j)))
        + (∑ j : Fin 8, W8 (w1ix (Fin.natAdd 64 j) k) * P (qix i j)) + b9 (vix k)) 0) + b11 zix) := by
  have hlt : (i 0).val < 1000000 := (i 0).isLt
  refine (shapeCast_apply _ shapeCasts_S1x1000000_S1000000 i (ix2 (0 : Fin 1) (⟨(i 0).val, hlt⟩ : Fin 1000000)) (by
    rw [Shape.rowMajor_val_two, Shape.rowMajor_val_one]
    show 0 * 1000000 + (i 0).val = (i 0).val
    omega)).trans ?_
  refine (extractStridedSlice_apply ![0, 0] _ slices_S1x1007616_S1x1000000_0_0 (ix2 (0 : Fin 1) (⟨(i 0).val, hlt⟩ : Fin 1000000))
    (ix2 (0 : Fin 1) (⟨(i 0).val, by omega⟩ : Fin 1007616)) (fun a => match a with
      | ⟨0, _⟩ => rfl
      | ⟨1, _⟩ => (show (i 0).val = 0 + (i 0).val by omega))).trans ?_
  unfold Head2.head
  refine congrArg Ideal.logistic (congrArg₂ (· + ·) (Finset.sum_congr rfl fun k _ => congrArg₂ (· * ·) ?_
    (congrArg (max · 0) (congrArg₂ (· + ·) (congrArg₂ (· + ·)
      (Finset.sum_congr rfl fun j _ => congrArg₂ (· * ·) ?_ (congrArg₂ (· * ·) ?_ ?_))
      (Finset.sum_congr rfl fun j _ => congrArg₂ (· * ·) ?_ ?_)) ?_))) ?_)
  · exact w2_apply W10 0 k
  · exact wa_apply W8 k j
  · exact padT64_apply D zD j _ i rfl
  · exact padT64_apply A zA j _ i rfl
  · exact wb_apply W8 k j
  · exact padT8_apply P zP j _ i rfl
  · exact b1_apply b9 k
  · exact b2_apply b11

end Cert.KernelIdeal.HeadInputs

end
-- ==== Proof.Stretch0.lean ====
/-
  The host operations before the first region, up to the selection of the inverse-square-root degrees, from ANY
  contents V of the buffers at launch: the source and target index lists with the self-loops appended, the node degrees
  counted by a scatter-add of ones, the comparison of the degrees with zero and their power -1/2. Each is the reference's
  stage of the first argument, the operations being the same one after the other; the other arguments are left as they
  were.
-/
import proofs.«118890_j31464930411166_1_alg».proof.Proof.Gen.KernelIdeal.Frame
import proofs.«118890_j31464930411166_1_alg».proof.Proof.RefRead
import Idealize.ShloMosaic.PureOps.Ideal
import Idealize.ShloMosaic.Lib.StableHlo.Run

set_option maxRecDepth 16384

noncomputable section

namespace Cert.KernelIdeal.Stretch0

open Cert.KernelIdeal Cert.KernelIdeal.Gen
open Idealize.ShloMosaic Idealize.ShloMosaic.TcCoe Idealize.ShloMosaic.StableHlo Idealize.SL.Sem

variable (V : Valuation τ sig (Elt Ideal))

set_option maxHeartbeats 8000000 in
theorem at_v3 : StableHlo.after hostOps0 V (Proc.devRef .tc main_v3) = Cert.ReferenceIdeal.Read.val_main_v3 (F := Ideal) (V (Proc.devRef .tc main_arg0)) := by
  after_results_simp <;> rfl

set_option maxHeartbeats 8000000 in
theorem at_v6 : StableHlo.after hostOps0 V (Proc.devRef .tc main_v6) = Cert.ReferenceIdeal.Read.val_main_v6 (F := Ideal) (V (Proc.devRef .tc main_arg0)) := by
  after_results_simp <;> rfl

set_option maxHeartbeats 8000000 in
theorem at_v12 : StableHlo.after hostOps0 V (Proc.devRef .tc main_v12) = Cert.ReferenceIdeal.Read.val_main_v12 (F := Ideal) (V (Proc.devRef .tc main_arg0)) := by
  after_results_simp <;> rfl

set_option maxHeartbeats 8000000 in
theorem at_v14 : StableHlo.after hostOps0 V (Proc.devRef .tc main_v14) = Cert.ReferenceIdeal.Read.val_main_v14 (F := Ideal) (V (Proc.devRef .tc main_arg0)) := by
  after_results_simp <;> rfl

set_option maxHeartbeats 8000000 in
theorem at_cst3 : StableHlo.after hostOps0 V (Proc.devRef .tc main_cst_3) = constant (F := Ideal) S_ .f32 0x00000000#32 := by
  after_results_simp <;> rfl

set_option maxHeartbeats 8000000 in
theorem keeps_arg1 : StableHlo.after hostOps0 V (Proc.devRef .tc main_arg1) = V (Proc.devRef .tc main_arg1) := by
  after_results_simp <;> rfl

set_option maxHeartbeats 8000000 in
theorem keeps_arg2 : StableHlo.after hostOps0 V (Proc.devRef .tc main_arg2) = V (Proc.devRef .tc main_arg2) := by
  after_results_simp <;> rfl

set_option maxHeartbeats 8000000 in
theorem keeps_arg3 : StableHlo.after hostOps0 V (Proc.devRef .tc main_arg3) = V (Proc.devRef .tc main_arg3) := by
  after_results_simp <;> rfl

set_option maxHeartbeats 8000000 in
theorem keeps_arg4 : StableHlo.after hostOps0 V (Proc.devRef .tc main_arg4) = V (Proc.devRef .tc main_arg4) := by
  after_results_simp <;> rfl

set_option maxHeartbeats 8000000 in
theorem keeps_arg5 : StableHlo.after hostOps0 V (Proc.devRef .tc main_arg5) = V (Proc.devRef .tc main_arg5) := by
  after_results_simp <;> rfl

set_option maxHeartbeats 8000000 in
theorem keeps_arg6 : StableHlo.after hostOps0 V (Proc.devRef .tc main_arg6) = V (Proc.devRef .tc main_arg6) := by
  after_results_simp <;> rfl

set_option maxHeartbeats 8000000 in
theorem keeps_arg7 : StableHlo.after hostOps0 V (Proc.devRef .tc main_arg7) = V (Proc.devRef .tc main_arg7) := by
  after_results_simp <;> rfl

set_option maxHeartbeats 8000000 in
theorem keeps_arg8 : StableHlo.after hostOps0 V (Proc.devRef .tc main_arg8) = V (Proc.devRef .tc main_arg8) := by
  after_results_simp <;> rfl

set_option maxHeartbeats 8000000 in
theorem keeps_arg9 : StableHlo.after hostOps0 V (Proc.devRef .tc main_arg9) = V (Proc.devRef .tc main_arg9) := by
  after_results_simp <;> rfl

set_option maxHeartbeats 8000000 in
theorem keeps_arg10 : StableHlo.after hostOps0 V (Proc.devRef .tc main_arg10) = V (Proc.devRef .tc main_arg10) := by
  after_results_simp <;> rfl

set_option maxHeartbeats 8000000 in
theorem keeps_arg11 : StableHlo.after hostOps0 V (Proc.devRef .tc main_arg11) = V (Proc.devRef .tc main_arg11) := by
  after_results_simp <;> rfl

end Cert.KernelIdeal.Stretch0

end
-- ==== Proof.Stretch0c.lean ====
/-
  The selection that ends the degree computation, from ANY contents V of the buffers before it: where the degree is
  positive its power -1/2, elsewhere zero. The index lists and the arguments are left as they were.
-/
import proofs.«118890_j31464930411166_1_alg».proof.Proof.Gen.KernelIdeal.Frame
import Idealize.ShloMosaic.PureOps.Ideal
import Idealize.ShloMosaic.Lib.StableHlo.Run

set_option maxRecDepth 16384

noncomputable section

namespace Cert.KernelIdeal.Stretch0c

open Cert.KernelIdeal Cert.KernelIdeal.Gen
open Idealize.ShloMosaic Idealize.ShloMosaic.TcCoe Idealize.ShloMosaic.StableHlo Idealize.SL.Sem

variable (V : Valuation τ sig (Elt Ideal))

set_option maxHeartbeats 8000000 in
theorem at_v15 : StableHlo.after hostOps0_1 V (Proc.devRef .tc main_v15)
    = select (V (Proc.devRef .tc main_v12)) (V (Proc.devRef .tc main_v14)) (broadcastInDim S100000 ![] bcast_S_S100000 (id (V (Proc.devRef .tc main_cst_3)))) := by
  after_results_simp <;> rfl

set_option maxHeartbeats 8000000 in
theorem keeps_v3 : StableHlo.after hostOps0_1 V (Proc.devRef .tc main_v3) = V (Proc.devRef .tc main_v3) := by
  after_results_simp <;> rfl

set_option maxHeartbeats 8000000 in
theorem keeps_v6 : StableHlo.after hostOps0_1 V (Proc.devRef .tc main_v6) = V (Proc.devRef .tc main_v6) := by
  after_results_simp <;> rfl

set_option maxHeartbeats 8000000 in
theorem keeps_arg1 : StableHlo.after hostOps0_1 V (Proc.devRef .tc main_arg1) = V (Proc.devRef .tc main_arg1) := by
  after_results_simp <;> rfl

set_option maxHeartbeats 8000000 in
theorem keeps_arg2 : StableHlo.after hostOps0_1 V (Proc.devRef .tc main_arg2) = V (Proc.devRef .tc main_arg2) := by
  after_results_simp <;> rfl

set_option maxHeartbeats 8000000 in
theorem keeps_arg3 : StableHlo.after hostOps0_1 V (Proc.devRef .tc main_arg3) = V (Proc.devRef .tc main_arg3) := by
  after_results_simp <;> rfl

set_option maxHeartbeats 8000000 in
theorem keeps_arg4 : StableHlo.after hostOps0_1 V (Proc.devRef .tc main_arg4) = V (Proc.devRef .tc main_arg4) := by
  after_results_simp <;> rfl

set_option maxHeartbeats 8000000 in
theorem keeps_arg5 : StableHlo.after hostOps0_1 V (Proc.devRef .tc main_arg5) = V (Proc.devRef .tc main_arg5) := by
  after_results_simp <;> rfl

set_option maxHeartbeats 8000000 in
theorem keeps_arg6 : StableHlo.after hostOps0_1 V (Proc.devRef .tc main_arg6) = V (Proc.devRef .tc main_arg6) := by
  after_results_simp <;> rfl

set_option maxHeartbeats 8000000 in
theorem keeps_arg7 : StableHlo.after hostOps0_1 V (Proc.devRef .tc main_arg7) = V (Proc.devRef .tc main_arg7) := by
  after_results_simp <;> rfl

set_option maxHeartbeats 8000000 in
theorem keeps_arg8 : StableHlo.after hostOps0_1 V (Proc.devRef .tc main_arg8) = V (Proc.devRef .tc main_arg8) := by
  after_results_simp <;> rfl

set_option maxHeartbeats 8000000 in
theorem keeps_arg9 : StableHlo.after hostOps0_1 V (Proc.devRef .tc main_arg9) = V (Proc.devRef .tc main_arg9) := by
  after_results_simp <;> rfl

set_option maxHeartbeats 8000000 in
theorem keeps_arg10 : StableHlo.after hostOps0_1 V (Proc.devRef .tc main_arg10) = V (Proc.devRef .tc main_arg10) := by
  after_results_simp <;> rfl

set_option maxHeartbeats 8000000 in
theorem keeps_arg11 : StableHlo.after hostOps0_1 V (Proc.devRef .tc main_arg11) = V (Proc.devRef .tc main_arg11) := by
  after_results_simp <;> rfl

end Cert.KernelIdeal.Stretch0c

end
-- ==== Proof.Stretch1.lean ====
/-
  The host operations between the first region and the rectification of the first layer, from ANY contents V of the
  buffers at the first region's exit: the normalised neighbour aggregation (gather the rows of the product, scale each by
  the two degree factors, scatter-add by target node) and the bias. If V holds the source and target index lists, the
  inverse-square-root degrees and the first product at the reference's stages of the arguments, the result is the
  reference's stage too, the operations being the same one after the other.
-/
import proofs.«118890_j31464930411166_1_alg».proof.Proof.Gen.KernelIdeal.Frame
import proofs.«118890_j31464930411166_1_alg».proof.Proof.RefRead
import Idealize.ShloMosaic.PureOps.Ideal
import Idealize.ShloMosaic.Lib.StableHlo.Run

set_option maxRecDepth 16384

noncomputable section

namespace Cert.KernelIdeal.Stretch1

open Cert.KernelIdeal Cert.KernelIdeal.Gen
open Idealize.ShloMosaic Idealize.ShloMosaic.TcCoe Idealize.ShloMosaic.StableHlo Idealize.SL.Sem

variable (V : Valuation τ sig (Elt Ideal))

set_option maxHeartbeats 16000000 in
theorem layer1 (x0 : (⟨Cert.ReferenceIdeal.S2x3200000, .i32⟩ : BufTy).Contents (Elt Ideal)) (x3 : (⟨Cert.ReferenceIdeal.S100000x32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal))
    (h3 : V (Proc.devRef .tc main_v3) = Cert.ReferenceIdeal.Read.val_main_v3 (F := Ideal) x0)
    (h6 : V (Proc.devRef .tc main_v6) = Cert.ReferenceIdeal.Read.val_main_v6 (F := Ideal) x0)
    (h15 : V (Proc.devRef .tc main_v15) = Cert.ReferenceIdeal.Read.val_main_v15 (F := Ideal) x0)
    (h16 : V (Proc.devRef .tc main_v16) = Cert.ReferenceIdeal.Read.val_main_v16 (F := Ideal) x3 x4)
    (h5 : V (Proc.devRef .tc main_arg5) = x5) :
    StableHlo.after hostOps1 V (Proc.devRef .tc main_v47) = Cert.ReferenceIdeal.Read.val_main_v47 (F := Ideal) x0 x3 x4 x5 := by
  after_results_simp
  rw [h3, h6, h15, h16, h5]
  rfl

end Cert.KernelIdeal.Stretch1

end
-- ==== Proof.Stretch1k.lean ====
/-
  The host operations between the first region and the rectification of the first layer leave the index lists, the
  degrees and the arguments read later as they were, from ANY contents V.
-/
import proofs.«118890_j31464930411166_1_alg».proof.Proof.Gen.KernelIdeal.Frame
import Idealize.ShloMosaic.PureOps.Ideal
import Idealize.ShloMosaic.Lib.StableHlo.Run

set_option maxRecDepth 16384

noncomputable section

namespace Cert.KernelIdeal.Stretch1k

open Cert.KernelIdeal Cert.KernelIdeal.Gen
open Idealize.ShloMosaic Idealize.ShloMosaic.TcCoe Idealize.ShloMosaic.StableHlo Idealize.SL.Sem

variable (V : Valuation τ sig (Elt Ideal))

set_option maxHeartbeats 8000000 in
theorem keeps_v3 : StableHlo.after hostOps1 V (Proc.devRef .tc main_v3) = V (Proc.devRef .tc main_v3) := by
  after_results_simp <;> rfl

set_option maxHeartbeats 8000000 in
theorem keeps_v6 : StableHlo.after hostOps1 V (Proc.devRef .tc main_v6) = V (Proc.devRef .tc main_v6) := by
  after_results_simp <;> rfl

set_option maxHeartbeats 8000000 in
theorem keeps_v15 : StableHlo.after hostOps1 V (Proc.devRef .tc main_v15) = V (Proc.devRef .tc main_v15) := by
  after_results_simp <;> rfl

set_option maxHeartbeats 8000000 in
theorem keeps_arg1 : StableHlo.after hostOps1 V (Proc.devRef .tc main_arg1) = V (Proc.devRef .tc main_arg1) := by
  after_results_simp <;> rfl

set_option maxHeartbeats 8000000 in
theorem keeps_arg2 : StableHlo.after hostOps1 V (Proc.devRef .tc main_arg2) = V (Proc.devRef .tc main_arg2) := by
  after_results_simp <;> rfl

set_option maxHeartbeats 8000000 in
theorem keeps_arg6 : StableHlo.after hostOps1 V (Proc.devRef .tc main_arg6) = V (Proc.devRef .tc main_arg6) := by
  after_results_simp <;> rfl

set_option maxHeartbeats 8000000 in
theorem keeps_arg7 : StableHlo.after hostOps1 V (Proc.devRef .tc main_arg7) = V (Proc.devRef .tc main_arg7) := by
  after_results_simp <;> rfl

set_option maxHeartbeats 8000000 in
theorem keeps_arg8 : StableHlo.after hostOps1 V (Proc.devRef .tc main_arg8) = V (Proc.devRef .tc main_arg8) := by
  after_results_simp <;> rfl

set_option maxHeartbeats 8000000 in
theorem keeps_arg9 : StableHlo.after hostOps1 V (Proc.devRef .tc main_arg9) = V (Proc.devRef .tc main_arg9) := by
  after_results_simp <;> rfl

set_option maxHeartbeats 8000000 in
theorem keeps_arg10 : StableHlo.after hostOps1 V (Proc.devRef .tc main_arg10) = V (Proc.devRef .tc main_arg10) := by
  after_results_simp <;> rfl

set_option maxHeartbeats 8000000 in
theorem keeps_arg11 : StableHlo.after hostOps1 V (Proc.devRef .tc main_arg11) = V (Proc.devRef .tc main_arg11) := by
  after_results_simp <;> rfl

end Cert.KernelIdeal.Stretch1k

end
-- ==== Proof.Stretch1c.lean ====
/-
  The rectification of the first layer, from ANY contents V of the buffers before it: the maximum with zero, entry by
  entry. Everything read later is left as it was.
-/
import proofs.«118890_j31464930411166_1_alg».proof.Proof.Gen.KernelIdeal.Frame
import Idealize.ShloMosaic.PureOps.Ideal
import Idealize.ShloMosaic.Lib.StableHlo.Run

set_option maxRecDepth 16384

noncomputable section

namespace Cert.KernelIdeal.Stretch1c

open Cert.KernelIdeal Cert.KernelIdeal.Gen
open Idealize.ShloMosaic Idealize.ShloMosaic.TcCoe Idealize.ShloMosaic.StableHlo Idealize.SL.Sem

variable (V : Valuation τ sig (Elt Ideal))

set_option maxHeartbeats 8000000 in
theorem at_v48 : StableHlo.after hostOps1_1 V (Proc.devRef .tc main_v48)
    = maximumf (V (Proc.devRef .tc main_v47)) (broadcastInDim S100000x64 ![] bcast_S_S100000x64 (constant (F := Ideal) S_ .f32 0x00000000#32)) := by
  after_results_simp <;> rfl

set_option maxHeartbeats 8000000 in
theorem keeps_v3 : StableHlo.after hostOps1_1 V (Proc.devRef .tc main_v3) = V (Proc.devRef .tc main_v3) := by
  after_results_simp <;> rfl

set_option maxHeartbeats 8000000 in
theorem keeps_v6 : StableHlo.after hostOps1_1 V (Proc.devRef .tc main_v6) = V (Proc.devRef .tc main_v6) := by
  after_results_simp <;> rfl

set_option maxHeartbeats 8000000 in
theorem keeps_v15 : StableHlo.after hostOps1_1 V (Proc.devRef .tc main_v15) = V (Proc.devRef .tc main_v15) := by
  after_results_simp <;> rfl

set_option maxHeartbeats 8000000 in
theorem keeps_arg1 : StableHlo.after hostOps1_1 V (Proc.devRef .tc main_arg1) = V (Proc.devRef .tc main_arg1) := by
  after_results_simp <;> rfl

set_option maxHeartbeats 8000000 in
theorem keeps_arg2 : StableHlo.after hostOps1_1 V (Proc.devRef .tc main_arg2) = V (Proc.devRef .tc main_arg2) := by
  after_results_simp <;> rfl

set_option maxHeartbeats 8000000 in
theorem keeps_arg6 : StableHlo.after hostOps1_1 V (Proc.devRef .tc main_arg6) = V (Proc.devRef .tc main_arg6) := by
  after_results_simp <;> rfl

set_option maxHeartbeats 8000000 in
theorem keeps_arg7 : StableHlo.after hostOps1_1 V (Proc.devRef .tc main_arg7) = V (Proc.devRef .tc main_arg7) := by
  after_results_simp <;> rfl

set_option maxHeartbeats 8000000 in
theorem keeps_arg8 : StableHlo.after hostOps1_1 V (Proc.devRef .tc main_arg8) = V (Proc.devRef .tc main_arg8) := by
  after_results_simp <;> rfl

set_option maxHeartbeats 8000000 in
theorem keeps_arg9 : StableHlo.after hostOps1_1 V (Proc.devRef .tc main_arg9) = V (Proc.devRef .tc main_arg9) := by
  after_results_simp <;> rfl

set_option maxHeartbeats 8000000 in
theorem keeps_arg10 : StableHlo.after hostOps1_1 V (Proc.devRef .tc main_arg10) = V (Proc.devRef .tc main_arg10) := by
  after_results_simp <;> rfl

set_option maxHeartbeats 8000000 in
theorem keeps_arg11 : StableHlo.after hostOps1_1 V (Proc.devRef .tc main_arg11) = V (Proc.devRef .tc main_arg11) := by
  after_results_simp <;> rfl

end Cert.KernelIdeal.Stretch1c

end
-- ==== Proof.Stretch2.lean ====
/-
  The first stretch of host operations after the second region, from ANY contents V of the buffers at that region's
  exit: the second layer's normalised neighbour aggregation and bias, then the rows of the result gathered at the two
  columns of the pair list. If V holds the index lists, the degrees and the second product at the reference's stages,
  the two gathered arrays are the reference's stages too; the first is also stored in the narrower float format, which
  changes nothing on the extended reals. The arguments read later are left as they were.
-/
import proofs.«118890_j31464930411166_1_alg».proof.Proof.Gen.KernelIdeal.Frame
import proofs.«118890_j31464930411166_1_alg».proof.Proof.RefRead
import Idealize.ShloMosaic.PureOps.Ideal
import Idealize.ShloMosaic.Lib.StableHlo.Run

set_option maxRecDepth 16384

noncomputable section

namespace Cert.KernelIdeal.Stretch2

open Cert.KernelIdeal Cert.KernelIdeal.Gen
open Idealize.ShloMosaic Idealize.ShloMosaic.TcCoe Idealize.ShloMosaic.StableHlo Idealize.SL.Sem

variable (V : Valuation τ sig (Elt Ideal))

set_option maxHeartbeats 32000000 in
theorem left_rows (x0 : (⟨Cert.ReferenceIdeal.S2x3200000, .i32⟩ : BufTy).Contents (Elt Ideal)) (x1 : (⟨Cert.ReferenceIdeal.S1000000x2, .i32⟩ : BufTy).Contents (Elt Ideal)) (x3 : (⟨Cert.ReferenceIdeal.S100000x32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal))
    (h3 : V (Proc.devRef .tc main_v3) = Cert.ReferenceIdeal.Read.val_main_v3 (F := Ideal) x0)
    (h6 : V (Proc.devRef .tc main_v6) = Cert.ReferenceIdeal.Read.val_main_v6 (F := Ideal) x0)
    (h15 : V (Proc.devRef .tc main_v15) = Cert.ReferenceIdeal.Read.val_main_v15 (F := Ideal) x0)
    (h49 : V (Proc.devRef .tc main_v49) = Cert.ReferenceIdeal.Read.val_main_v49 (F := Ideal) x0 x3 x4 x5 x6)
    (h7 : V (Proc.devRef .tc main_arg7) = x7)
    (h1 : V (Proc.devRef .tc main_arg1) = x1) :
    StableHlo.after hostOps2 V (Proc.devRef .tc main_v99) = truncf (F := Ideal) .bf16 (Cert.ReferenceIdeal.Read.val_main_v89 (F := Ideal) x0 x1 x3 x4 x5 x6 x7) bitsLt_bf16_f32 := by
  after_results_simp
  rw [h3, h6, h15, h49, h7, h1]
  rfl

set_option maxHeartbeats 32000000 in
theorem right_rows (x0 : (⟨Cert.ReferenceIdeal.S2x3200000, .i32⟩ : BufTy).Contents (Elt Ideal)) (x1 : (⟨Cert.ReferenceIdeal.S1000000x2, .i32⟩ : BufTy).Contents (Elt Ideal)) (x3 : (⟨Cert.ReferenceIdeal.S100000x32, .f32⟩ : BufTy).Contents (Elt Ideal)) (x4 : (⟨Cert.ReferenceIdeal.S32x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal))
    (h3 : V (Proc.devRef .tc main_v3) = Cert.ReferenceIdeal.Read.val_main_v3 (F := Ideal) x0)
    (h6 : V (Proc.devRef .tc main_v6) = Cert.ReferenceIdeal.Read.val_main_v6 (F := Ideal) x0)
    (h15 : V (Proc.devRef .tc main_v15) = Cert.ReferenceIdeal.Read.val_main_v15 (F := Ideal) x0)
    (h49 : V (Proc.devRef .tc main_v49) = Cert.ReferenceIdeal.Read.val_main_v49 (F := Ideal) x0 x3 x4 x5 x6)
    (h7 : V (Proc.devRef .tc main_arg7) = x7)
    (h1 : V (Proc.devRef .tc main_arg1) = x1) :
    StableHlo.after hostOps2 V (Proc.devRef .tc main_v98) = Cert.ReferenceIdeal.Read.val_main_v98 (F := Ideal) x0 x1 x3 x4 x5 x6 x7 := by
  after_results_simp
  rw [h3, h6, h15, h49, h7, h1]
  rfl

set_option maxHeartbeats 8000000 in
theorem pad_count : StableHlo.after hostOps2 V (Proc.devRef .tc main_c_21) = constantI S_ 32 0#32 := by
  after_results_simp <;> rfl

set_option maxHeartbeats 8000000 in
theorem keeps_arg2 : StableHlo.after hostOps2 V (Proc.devRef .tc main_arg2) = V (Proc.devRef .tc main_arg2) := by
  after_results_simp <;> rfl

set_option maxHeartbeats 8000000 in
theorem keeps_arg8 : StableHlo.after hostOps2 V (Proc.devRef .tc main_arg8) = V (Proc.devRef .tc main_arg8) := by
  after_results_simp <;> rfl

set_option maxHeartbeats 8000000 in
theorem keeps_arg9 : StableHlo.after hostOps2 V (Proc.devRef .tc main_arg9) = V (Proc.devRef .tc main_arg9) := by
  after_results_simp <;> rfl

set_option maxHeartbeats 8000000 in
theorem keeps_arg10 : StableHlo.after hostOps2 V (Proc.devRef .tc main_arg10) = V (Proc.devRef .tc main_arg10) := by
  after_results_simp <;> rfl

set_option maxHeartbeats 8000000 in
theorem keeps_arg11 : StableHlo.after hostOps2 V (Proc.devRef .tc main_arg11) = V (Proc.devRef .tc main_arg11) := by
  after_results_simp <;> rfl

end Cert.KernelIdeal.Stretch2

end
-- ==== Proof.Stretch3.lean ====
/-
  The layout operations that feed the third region, from ANY contents V of the buffers before them: each gathered array
  and the patient features are stored in the narrower float format, padded with 7616 further rows and transposed, so
  that the long axis of a million rows becomes the columns; the first 64 and the last 8 rows of the first head matrix
  are cut out and transposed, the second head matrix is transposed, and the two bias vectors become a column and a
  one-by-one matrix.
-/
import proofs.«118890_j31464930411166_1_alg».proof.Proof.Gen.KernelIdeal.Frame
import Idealize.ShloMosaic.PureOps.Ideal
import Idealize.ShloMosaic.Lib.StableHlo.Run

set_option maxRecDepth 16384

noncomputable section

namespace Cert.KernelIdeal.Stretch3

open Cert.KernelIdeal Cert.KernelIdeal.Gen
open Idealize.ShloMosaic Idealize.ShloMosaic.TcCoe Idealize.ShloMosaic.StableHlo Idealize.SL.Sem

variable (V : Valuation τ sig (Elt Ideal))

set_option maxHeartbeats 8000000 in
theorem at_v101 : StableHlo.after hostOps2_6 (StableHlo.after hostOps2_5 (StableHlo.after hostOps2_4 (StableHlo.after hostOps2_3 (StableHlo.after hostOps2_2 (StableHlo.after hostOps2_1 V))))) (Proc.devRef .tc main_v101)
    = transpose S64x1007616 [1, 0] (pad S1007616x64 ![0, 0] ![7616, 0] ![0, 0] (V (Proc.devRef .tc main_v99)) (sitofp (F := Ideal) .bf16 (V (Proc.devRef .tc main_c_21))) pads_S1000000x64_S1007616x64_076160_000 h_S_) transposes_S1007616x64_S64x1007616_1_0 := by
  after_results_simp <;> rfl

set_option maxHeartbeats 8000000 in
theorem at_v104 : StableHlo.after hostOps2_6 (StableHlo.after hostOps2_5 (StableHlo.after hostOps2_4 (StableHlo.after hostOps2_3 (StableHlo.after hostOps2_2 (StableHlo.after hostOps2_1 V))))) (Proc.devRef .tc main_v104)
    = transpose S64x1007616 [1, 0] (pad S1007616x64 ![0, 0] ![7616, 0] ![0, 0] (truncf (F := Ideal) .bf16 (V (Proc.devRef .tc main_v98)) bitsLt_bf16_f32) (sitofp (F := Ideal) .bf16 (constantI S_ 32 0#32)) pads_S1000000x64_S1007616x64_076160_000 h_S_) transposes_S1007616x64_S64x1007616_1_0 := by
  after_results_simp <;> rfl

set_option maxHeartbeats 8000000 in
theorem at_v107 : StableHlo.after hostOps2_6 (StableHlo.after hostOps2_5 (StableHlo.after hostOps2_4 (StableHlo.after hostOps2_3 (StableHlo.after hostOps2_2 (StableHlo.after hostOps2_1 V))))) (Proc.devRef .tc main_v107)
    = transpose S8x1007616 [1, 0] (pad S1007616x8 ![0, 0] ![7616, 0] ![0, 0] (truncf (F := Ideal) .bf16 (V (Proc.devRef .tc main_arg2)) bitsLt_bf16_f32) (sitofp (F := Ideal) .bf16 (constantI S_ 32 0#32)) pads_S1000000x8_S1007616x8_076160_000 h_S_) transposes_S1007616x8_S8x1007616_1_0 := by
  after_results_simp <;> rfl

set_option maxHeartbeats 8000000 in
theorem at_v110 : StableHlo.after hostOps2_6 (StableHlo.after hostOps2_5 (StableHlo.after hostOps2_4 (StableHlo.after hostOps2_3 (StableHlo.after hostOps2_2 (StableHlo.after hostOps2_1 V))))) (Proc.devRef .tc main_v110)
    = truncf (F := Ideal) .bf16 (transpose S64x64 [1, 0] (extractStridedSlice S64x64 ![0, 0] (V (Proc.devRef .tc main_arg8)) slices_S72x64_S64x64_0_0) transposes_S64x64_S64x64_1_0) bitsLt_bf16_f32 := by
  after_results_simp <;> rfl

set_option maxHeartbeats 8000000 in
theorem at_v113 : StableHlo.after hostOps2_6 (StableHlo.after hostOps2_5 (StableHlo.after hostOps2_4 (StableHlo.after hostOps2_3 (StableHlo.after hostOps2_2 (StableHlo.after hostOps2_1 V))))) (Proc.devRef .tc main_v113)
    = truncf (F := Ideal) .bf16 (transpose S64x8 [1, 0] (extractStridedSlice S8x64 ![64, 0] (V (Proc.devRef .tc main_arg8)) slices_S72x64_S8x64_64_0) transposes_S8x64_S64x8_1_0) bitsLt_bf16_f32 := by
  after_results_simp <;> rfl

set_option maxHeartbeats 8000000 in
theorem at_v116 : StableHlo.after hostOps2_6 (StableHlo.after hostOps2_5 (StableHlo.after hostOps2_4 (StableHlo.after hostOps2_3 (StableHlo.after hostOps2_2 (StableHlo.after hostOps2_1 V))))) (Proc.devRef .tc main_v116)
    = shapeCast S64x1 (V (Proc.devRef .tc main_arg9)) shapeCasts_S64_S64x1 := by
  after_results_simp <;> rfl

set_option maxHeartbeats 8000000 in
theorem at_v115 : StableHlo.after hostOps2_6 (StableHlo.after hostOps2_5 (StableHlo.after hostOps2_4 (StableHlo.after hostOps2_3 (StableHlo.after hostOps2_2 (StableHlo.after hostOps2_1 V))))) (Proc.devRef .tc main_v115)
    = truncf (F := Ideal) .bf16 (transpose S1x64 [1, 0] (V (Proc.devRef .tc main_arg10)) transposes_S64x1_S1x64_1_0) bitsLt_bf16_f32 := by
  after_results_simp <;> rfl

set_option maxHeartbeats 8000000 in
theorem at_v117 : StableHlo.after hostOps2_6 (StableHlo.after hostOps2_5 (StableHlo.after hostOps2_4 (StableHlo.after hostOps2_3 (StableHlo.after hostOps2_2 (StableHlo.after hostOps2_1 V))))) (Proc.devRef .tc main_v117)
    = shapeCast S1x1 (V (Proc.devRef .tc main_arg11)) shapeCasts_S1_S1x1 := by
  after_results_simp <;> rfl

end Cert.KernelIdeal.Stretch3

end
-- ==== Proof.Stretch4.lean ====
/-
  The two host operations after the third region, from ANY contents V of the buffers at its exit: the first million
  columns of the one-row output are cut out and the row is read as a vector.
-/
import proofs.«118890_j31464930411166_1_alg».proof.Proof.Gen.KernelIdeal.Frame
import Idealize.ShloMosaic.PureOps.Ideal
import Idealize.ShloMosaic.Lib.StableHlo.Run

set_option maxRecDepth 16384

noncomputable section

namespace Cert.KernelIdeal.Stretch4

open Cert.KernelIdeal Cert.KernelIdeal.Gen
open Idealize.ShloMosaic Idealize.ShloMosaic.TcCoe Idealize.ShloMosaic.StableHlo Idealize.SL.Sem

variable (V : Valuation τ sig (Elt Ideal))

theorem result : StableHlo.after hostOps3 V (Proc.devRef .tc main_v120)
    = shapeCast S1000000 (extractStridedSlice S1x1000000 ![0, 0] (V (Proc.devRef .tc main_v118)) slices_S1x1007616_S1x1000000_0_0) shapeCasts_S1x1000000_S1000000 := by
  after_results_simp <;> rfl

end Cert.KernelIdeal.Stretch4

end
-- ==== Proof.ReadBack.lean ====
/-
  The result of the idealized kernel program, read back through its segments.

  The buffer contents at each segment boundary are a fold from the launch memory (the generated frame names them W0 … W15).
  Reading the fold one segment at a time: the operations before the first region leave the index lists and the degrees at
  the reference's stages; the first region leaves the first matrix product, which is the reference's product entry by
  entry; the operations up to the second region leave the rectified first layer; the second region the second product;
  the operations up to the third region leave the two gathered arrays, the patient features and the head's weights in
  the transposed, padded layout the third region reads; the third region leaves the head's value column by column; the
  last two operations cut the padding away. So the result at pair p is the logistic function of the head's second
  contraction, in the form with the weights on the left and the first contraction split after its 64th term.
-/
import proofs.«118890_j31464930411166_1_alg».proof.Proof.Gen.KernelIdeal.Frame
import proofs.«118890_j31464930411166_1_alg».proof.Proof.RefRead
import proofs.«118890_j31464930411166_1_alg».proof.Proof.Linear0
import proofs.«118890_j31464930411166_1_alg».proof.Proof.Linear1
import proofs.«118890_j31464930411166_1_alg».proof.Proof.Head2
import proofs.«118890_j31464930411166_1_alg».proof.Proof.HeadInputs
import proofs.«118890_j31464930411166_1_alg».proof.Proof.Stretch0
import proofs.«118890_j31464930411166_1_alg».proof.Proof.Stretch0c
import proofs.«118890_j31464930411166_1_alg».proof.Proof.Stretch1
import proofs.«118890_j31464930411166_1_alg».proof.Proof.Stretch1k
import proofs.«118890_j31464930411166_1_alg».proof.Proof.Stretch1c
import proofs.«118890_j31464930411166_1_alg».proof.Proof.Stretch2
import proofs.«118890_j31464930411166_1_alg».proof.Proof.Stretch3
import proofs.«118890_j31464930411166_1_alg».proof.Proof.Stretch4
import Idealize.ShloMosaic.PureOps.Ideal
import Idealize.ShloMosaic.Lib.StableHlo.Run

set_option maxRecDepth 16384

noncomputable section

namespace Cert.KernelIdeal.ReadBack

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before the first region: up to the selection of the degrees, then the selection -/

theorem pre0_v3 : W1 m ρ c (Proc.devRef .tc main_v3) = Cert.ReferenceIdeal.Read.val_main_v3 (F := Ideal) (m ((c : Thread nD τ).loc main_arg0)) :=
  Stretch0.at_v3 (W0 m ρ c)
theorem pre0_v6 : W1 m ρ c (Proc.devRef .tc main_v6) = Cert.ReferenceIdeal.Read.val_main_v6 (F := Ideal) (m ((c : Thread nD τ).loc main_arg0)) :=
  Stretch0.at_v6 (W0 m ρ c)
theorem pre0_v12 : W1 m ρ c (Proc.devRef .tc main_v12) = Cert.ReferenceIdeal.Read.val_main_v12 (F := Ideal) (m ((c : Thread nD τ).loc main_arg0)) :=
  Stretch0.at_v12 (W0 m ρ c)
theorem pre0_v14 : W1 m ρ c (Proc.devRef .tc main_v14) = Cert.ReferenceIdeal.Read.val_main_v14 (F := Ideal) (m ((c : Thread nD τ).loc main_arg0)) :=
  Stretch0.at_v14 (W0 m ρ c)
theorem pre0_cst3 : W1 m ρ c (Proc.devRef .tc main_cst_3) = constant (F := Ideal) S_ .f32 0x00000000#32 :=
  Stretch0.at_cst3 (W0 m ρ c)
theorem pre0_arg1 : W1 m ρ c (Proc.devRef .tc main_arg1) = (m ((c : Thread nD τ).loc main_arg1)) :=
  Stretch0.keeps_arg1 (W0 m ρ c)
theorem pre0_arg2 : W1 m ρ c (Proc.devRef .tc main_arg2) = (m ((c : Thread nD τ).loc main_arg2)) :=
  Stretch0.keeps_arg2 (W0 m ρ c)
theorem pre0_arg3 : W1 m ρ c (Proc.devRef .tc main_arg3) = (m ((c : Thread nD τ).loc main_arg3)) :=
  Stretch0.keeps_arg3 (W0 m ρ c)
theorem pre0_arg4 : W1 m ρ c (Proc.devRef .tc main_arg4) = (m ((c : Thread nD τ).loc main_arg4)) :=
  Stretch0.keeps_arg4 (W0 m ρ c)
theorem pre0_arg5 : W1 m ρ c (Proc.devRef .tc main_arg5) = (m ((c : Thread nD τ).loc main_arg5)) :=
  Stretch0.keeps_arg5 (W0 m ρ c)
theorem pre0_arg6 : W1 m ρ c (Proc.devRef .tc main_arg6) = (m ((c : Thread nD τ).loc main_arg6)) :=
  Stretch0.keeps_arg6 (W0 m ρ c)
theorem pre0_arg7 : W1 m ρ c (Proc.devRef .tc main_arg7) = (m ((c : Thread nD τ).loc main_arg7)) :=
  Stretch0.keeps_arg7 (W0 m ρ c)
theorem pre0_arg8 : W1 m ρ c (Proc.devRef .tc main_arg8) = (m ((c : Thread nD τ).loc main_arg8)) :=
  Stretch0.keeps_arg8 (W0 m ρ c)
theorem pre0_arg9 : W1 m ρ c (Proc.devRef .tc main_arg9) = (m ((c : Thread nD τ).loc main_arg9)) :=
  Stretch0.keeps_arg9 (W0 m ρ c)
theorem pre0_arg10 : W1 m ρ c (Proc.devRef .tc main_arg10) = (m ((c : Thread nD τ).loc main_arg10)) :=
  Stretch0.keeps_arg10 (W0 m ρ c)
theorem pre0_arg11 : W1 m ρ c (Proc.devRef .tc main_arg11) = (m ((c : Thread nD τ).loc main_arg11)) :=
  Stretch0.keeps_arg11 (W0 m ρ c)

theorem entry0_v15 : W2 m ρ c (Proc.devRef .tc main_v15) = Cert.ReferenceIdeal.Read.val_main_v15 (F := Ideal) (m ((c : Thread nD τ).loc main_arg0)) := by
  refine (Stretch0c.at_v15 (W1 m ρ c)).trans ?_
  rw [pre0_v12, pre0_v14, pre0_cst3]
  rfl
theorem entry0_v3 : W2 m ρ c (Proc.devRef .tc main_v3) = Cert.ReferenceIdeal.Read.val_main_v3 (F := Ideal) (m ((c : Thread nD τ).loc main_arg0)) :=
  (Stretch0c.keeps_v3 (W1 m ρ c)).trans (pre0_v3 m ρ c)
theorem entry0_v6 : W2 m ρ c (Proc.devRef .tc main_v6) = Cert.ReferenceIdeal.Read.val_main_v6 (F := Ideal) (m ((c : Thread nD τ).loc main_arg0)) :=
  (Stretch0c.keeps_v6 (W1 m ρ c)).trans (pre0_v6 m ρ c)
theorem entry0_arg1 : W2 m ρ c (Proc.devRef .tc main_arg1) = (m ((c : Thread nD τ).loc main_arg1)) :=
  (Stretch0c.keeps_arg1 (W1 m ρ c)).trans (pre0_arg1 m ρ c)
theorem entry0_arg2 : W2 m ρ c (Proc.devRef .tc main_arg2) = (m ((c : Thread nD τ).loc main_arg2)) :=
  (Stretch0c.keeps_arg2 (W1 m ρ c)).trans (pre0_arg2 m ρ c)
theorem entry0_arg3 : W2 m ρ c (Proc.devRef .tc main_arg3) = (m ((c : Thread nD τ).loc main_arg3)) :=
  (Stretch0c.keeps_arg3 (W1 m ρ c)).trans (pre0_arg3 m ρ c)
theorem entry0_arg4 : W2 m ρ c (Proc.devRef .tc main_arg4) = (m ((c : Thread nD τ).loc main_arg4)) :=
  (Stretch0c.keeps_arg4 (W1 m ρ c)).trans (pre0_arg4 m ρ c)
theorem entry0_arg5 : W2 m ρ c (Proc.devRef .tc main_arg5) = (m ((c : Thread nD τ).loc main_arg5)) :=
  (Stretch0c.keeps_arg5 (W1 m ρ c)).trans (pre0_arg5 m ρ c)
theorem entry0_arg6 : W2 m ρ c (Proc.devRef .tc main_arg6) = (m ((c : Thread nD τ).loc main_arg6)) :=
  (Stretch0c.keeps_arg6 (W1 m ρ c)).trans (pre0_arg6 m ρ c)
theorem entry0_arg7 : W2 m ρ c (Proc.devRef .tc main_arg7) = (m ((c : Thread nD τ).loc main_arg7)) :=
  (Stretch0c.keeps_arg7 (W1 m ρ c)).trans (pre0_arg7 m ρ c)
theorem entry0_arg8 : W2 m ρ c (Proc.devRef .tc main_arg8) = (m ((c : Thread nD τ).loc main_arg8)) :=
  (Stretch0c.keeps_arg8 (W1 m ρ c)).trans (pre0_arg8 m ρ c)
theorem entry0_arg9 : W2 m ρ c (Proc.devRef .tc main_arg9) = (m ((c : Thread nD τ).loc main_arg9)) :=
  (Stretch0c.keeps_arg9 (W1 m ρ c)).trans (pre0_arg9 m ρ c)
theorem entry0_arg10 : W2 m ρ c (Proc.devRef .tc main_arg10) = (m ((c : Thread nD τ).loc main_arg10)) :=
  (Stretch0c.keeps_arg10 (W1 m ρ c)).trans (pre0_arg10 m ρ c)
theorem entry0_arg11 : W2 m ρ c (Proc.devRef .tc main_arg11) = (m ((c : Thread nD τ).loc main_arg11)) :=
  (Stretch0c.keeps_arg11 (W1 m ρ c)).trans (pre0_arg11 m ρ c)

/-! ## At the first region's exit: the first product, everything else as entered -/

theorem exit0_v16 : W3 m ρ c (Proc.devRef .tc main_v16) = Cert.ReferenceIdeal.Read.val_main_v16 (F := Ideal) (m ((c : Thread nD τ).loc main_arg3)) (m ((c : Thread nD τ).loc main_arg4)) := by
  refine (W3_arr m ρ c 2).trans ((Linear0.final (V2 m ρ) c).trans ?_)
  show Linear0.prod (W2 m ρ c (Proc.devRef .tc main_arg3)) (W2 m ρ c (Proc.devRef .tc main_arg4)) = _
  rw [entry0_arg3, entry0_arg4]
  funext i
  exact (Cert.ReferenceIdeal.Read.val_main_v16_apply (m ((c : Thread nD τ).loc main_arg3)) (m ((c : Thread nD τ).loc main_arg4)) i).symm
theorem exit0_v3 : W3 m ρ c (Proc.devRef .tc main_v3) = Cert.ReferenceIdeal.Read.val_main_v3 (F := Ideal) (m ((c : Thread nD τ).loc main_arg0)) :=
  (W3_of_ne m ρ c main_v3 (by decide)).trans (entry0_v3 m ρ c)
theorem exit0_v6 : W3 m ρ c (Proc.devRef .tc main_v6) = Cert.ReferenceIdeal.Read.val_main_v6 (F := Ideal) (m ((c : Thread nD τ).loc main_arg0)) :=
  (W3_of_ne m ρ c main_v6 (by decide)).trans (entry0_v6 m ρ c)
theorem exit0_v15 : W3 m ρ c (Proc.devRef .tc main_v15) = Cert.ReferenceIdeal.Read.val_main_v15 (F := Ideal) (m ((c : Thread nD τ).loc main_arg0)) :=
  (W3_of_ne m ρ c main_v15 (by decide)).trans (entry0_v15 m ρ c)
theorem exit0_arg1 : W3 m ρ c (Proc.devRef .tc main_arg1) = (m ((c : Thread nD τ).loc main_arg1)) :=
  (W3_of_ne m ρ c main_arg1 (by decide)).trans (entry0_arg1 m ρ c)
theorem exit0_arg2 : W3 m ρ c (Proc.devRef .tc main_arg2) = (m ((c : Thread nD τ).loc main_arg2)) :=
  (W3_of_ne m ρ c main_arg2 (by decide)).trans (entry0_arg2 m ρ c)
theorem exit0_arg5 : W3 m ρ c (Proc.devRef .tc main_arg5) = (m ((c : Thread nD τ).loc main_arg5)) :=
  (W3_of_ne m ρ c main_arg5 (by decide)).trans (entry0_arg5 m ρ c)
theorem exit0_arg6 : W3 m ρ c (Proc.devRef .tc main_arg6) = (m ((c : Thread nD τ).loc main_arg6)) :=
  (W3_of_ne m ρ c main_arg6 (by decide)).trans (entry0_arg6 m ρ c)
theorem exit0_arg7 : W3 m ρ c (Proc.devRef .tc main_arg7) = (m ((c : Thread nD τ).loc main_arg7)) :=
  (W3_of_ne m ρ c main_arg7 (by decide)).trans (entry0_arg7 m ρ c)
theorem exit0_arg8 : W3 m ρ c (Proc.devRef .tc main_arg8) = (m ((c : Thread nD τ).loc main_arg8)) :=
  (W3_of_ne m ρ c main_arg8 (by decide)).trans (entry0_arg8 m ρ c)
theorem exit0_arg9 : W3 m ρ c (Proc.devRef .tc main_arg9) = (m ((c : Thread nD τ).loc main_arg9)) :=
  (W3_of_ne m ρ c main_arg9 (by decide)).trans (entry0_arg9 m ρ c)
theorem exit0_arg10 : W3 m ρ c (Proc.devRef .tc main_arg10) = (m ((c : Thread nD τ).loc main_arg10)) :=
  (W3_of_ne m ρ c main_arg10 (by decide)).trans (entry0_arg10 m ρ c)
theorem exit0_arg11 : W3 m ρ c (Proc.devRef .tc main_arg11) = (m ((c : Thread nD τ).loc main_arg11)) :=
  (W3_of_ne m ρ c main_arg11 (by decide)).trans (entry0_arg11 m ρ c)

/-! ## Before the second region: the first layer's aggregation and bias, then its rectification -/

theorem pre1_v47 : W4 m ρ c (Proc.devRef .tc main_v47) = Cert.ReferenceIdeal.Read.val_main_v47 (F := Ideal) (m ((c : Thread nD τ).loc main_arg0)) (m ((c : Thread nD τ).loc main_arg3)) (m ((c : Thread nD τ).loc main_arg4)) (m ((c : Thread nD τ).loc main_arg5)) :=
  Stretch1.layer1 (W3 m ρ c) (m ((c : Thread nD τ).loc main_arg0)) (m ((c : Thread nD τ).loc main_arg3)) (m ((c : Thread nD τ).loc main_arg4)) (m ((c : Thread nD τ).loc main_arg5)) (exit0_v3 m ρ c) (exit0_v6 m ρ c) (exit0_v15 m ρ c) (exit0_v16 m ρ c) (exit0_arg5 m ρ c)
theorem pre1_v3 : W4 m ρ c (Proc.devRef .tc main_v3) = Cert.ReferenceIdeal.Read.val_main_v3 (F := Ideal) (m ((c : Thread nD τ).loc main_arg0)) :=
  (Stretch1k.keeps_v3 (W3 m ρ c)).trans (exit0_v3 m ρ c)
theorem pre1_v6 : W4 m ρ c (Proc.devRef .tc main_v6) = Cert.ReferenceIdeal.Read.val_main_v6 (F := Ideal) (m ((c : Thread nD τ).loc main_arg0)) :=
  (Stretch1k.keeps_v6 (W3 m ρ c)).trans (exit0_v6 m ρ c)
theorem pre1_v15 : W4 m ρ c (Proc.devRef .tc main_v15) = Cert.ReferenceIdeal.Read.val_main_v15 (F := Ideal) (m ((c : Thread nD τ).loc main_arg0)) :=
  (Stretch1k.keeps_v15 (W3 m ρ c)).trans (exit0_v15 m ρ c)
theorem pre1_arg1 : W4 m ρ c (Proc.devRef .tc main_arg1) = (m ((c : Thread nD τ).loc main_arg1)) :=
  (Stretch1k.keeps_arg1 (W3 m ρ c)).trans (exit0_arg1 m ρ c)
theorem pre1_arg2 : W4 m ρ c (Proc.devRef .tc main_arg2) = (m ((c : Thread nD τ).loc main_arg2)) :=
  (Stretch1k.keeps_arg2 (W3 m ρ c)).trans (exit0_arg2 m ρ c)
theorem pre1_arg6 : W4 m ρ c (Proc.devRef .tc main_arg6) = (m ((c : Thread nD τ).loc main_arg6)) :=
  (Stretch1k.keeps_arg6 (W3 m ρ c)).trans (exit0_arg6 m ρ c)
theorem pre1_arg7 : W4 m ρ c (Proc.devRef .tc main_arg7) = (m ((c : Thread nD τ).loc main_arg7)) :=
  (Stretch1k.keeps_arg7 (W3 m ρ c)).trans (exit0_arg7 m ρ c)
theorem pre1_arg8 : W4 m ρ c (Proc.devRef .tc main_arg8) = (m ((c : Thread nD τ).loc main_arg8)) :=
  (Stretch1k.keeps_arg8 (W3 m ρ c)).trans (exit0_arg8 m ρ c)
theorem pre1_arg9 : W4 m ρ c (Proc.devRef .tc main_arg9) = (m ((c : Thread nD τ).loc main_arg9)) :=
  (Stretch1k.keeps_arg9 (W3 m ρ c)).trans (exit0_arg9 m ρ c)
theorem pre1_arg10 : W4 m ρ c (Proc.devRef .tc main_arg10) = (m ((c : Thread nD τ).loc main_arg10)) :=
  (Stretch1k.keeps_arg10 (W3 m ρ c)).trans (exit0_arg10 m ρ c)
theorem pre1_arg11 : W4 m ρ c (Proc.devRef .tc main_arg11) = (m ((c : Thread nD τ).loc main_arg11)) :=
  (Stretch1k.keeps_arg11 (W3 m ρ c)).trans (exit0_arg11 m ρ c)

theorem entry1_v48 : W5 m ρ c (Proc.devRef .tc main_v48) = Cert.ReferenceIdeal.Read.val_main_v48 (F := Ideal) (m ((c : Thread nD τ).loc main_arg0)) (m ((c : Thread nD τ).loc main_arg3)) (m ((c : Thread nD τ).loc main_arg4)) (m ((c : Thread nD τ).loc main_arg5)) := by
  refine (Stretch1c.at_v48 (W4 m ρ c)).trans ?_
  rw [pre1_v47]
  rfl
theorem entry1_v3 : W5 m ρ c (Proc.devRef .tc main_v3) = Cert.ReferenceIdeal.Read.val_main_v3 (F := Ideal) (m ((c : Thread nD τ).loc main_arg0)) :=
  (Stretch1c.keeps_v3 (W4 m ρ c)).trans (pre1_v3 m ρ c)
theorem entry1_v6 : W5 m ρ c (Proc.devRef .tc main_v6) = Cert.ReferenceIdeal.Read.val_main_v6 (F := Ideal) (m ((c : Thread nD τ).loc main_arg0)) :=
  (Stretch1c.keeps_v6 (W4 m ρ c)).trans (pre1_v6 m ρ c)
theorem entry1_v15 : W5 m ρ c (Proc.devRef .tc main_v15) = Cert.ReferenceIdeal.Read.val_main_v15 (F := Ideal) (m ((c : Thread nD τ).loc main_arg0)) :=
  (Stretch1c.keeps_v15 (W4 m ρ c)).trans (pre1_v15 m ρ c)
theorem entry1_arg1 : W5 m ρ c (Proc.devRef .tc main_arg1) = (m ((c : Thread nD τ).loc main_arg1)) :=
  (Stretch1c.keeps_arg1 (W4 m ρ c)).trans (pre1_arg1 m ρ c)
theorem entry1_arg2 : W5 m ρ c (Proc.devRef .tc main_arg2) = (m ((c : Thread nD τ).loc main_arg2)) :=
  (Stretch1c.keeps_arg2 (W4 m ρ c)).trans (pre1_arg2 m ρ c)
theorem entry1_arg6 : W5 m ρ c (Proc.devRef .tc main_arg6) = (m ((c : Thread nD τ).loc main_arg6)) :=
  (Stretch1c.keeps_arg6 (W4 m ρ c)).trans (pre1_arg6 m ρ c)
theorem entry1_arg7 : W5 m ρ c (Proc.devRef .tc main_arg7) = (m ((c : Thread nD τ).loc main_arg7)) :=
  (Stretch1c.keeps_arg7 (W4 m ρ c)).trans (pre1_arg7 m ρ c)
theorem entry1_arg8 : W5 m ρ c (Proc.devRef .tc main_arg8) = (m ((c : Thread nD τ).loc main_arg8)) :=
  (Stretch1c.keeps_arg8 (W4 m ρ c)).trans (pre1_arg8 m ρ c)
theorem entry1_arg9 : W5 m ρ c (Proc.devRef .tc main_arg9) = (m ((c : Thread nD τ).loc main_arg9)) :=
  (Stretch1c.keeps_arg9 (W4 m ρ c)).trans (pre1_arg9 m ρ c)
theorem entry1_arg10 : W5 m ρ c (Proc.devRef .tc main_arg10) = (m ((c : Thread nD τ).loc main_arg10)) :=
  (Stretch1c.keeps_arg10 (W4 m ρ c)).trans (pre1_arg10 m ρ c)
theorem entry1_arg11 : W5 m ρ c (Proc.devRef .tc main_arg11) = (m ((c : Thread nD τ).loc main_arg11)) :=
  (Stretch1c.keeps_arg11 (W4 m ρ c)).trans (pre1_arg11 m ρ c)

/-! ## At the second region's exit: the second product -/

theorem exit1_v49 : W6 m ρ c (Proc.devRef .tc main_v49) = Cert.ReferenceIdeal.Read.val_main_v49 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  refine (W6_arr m ρ c 2).trans ((Linear1.final (V5 m ρ) c).trans ?_)
  show Linear1.prod (W5 m ρ c (Proc.devRef .tc main_v48)) (W5 m ρ c (Proc.devRef .tc main_arg6)) = _
  rw [entry1_v48, entry1_arg6]
  funext i
  exact (Cert.ReferenceIdeal.Read.val_main_v49_apply (m ((c : Thread nD τ).loc main_arg0)) (m ((c : Thread nD τ).loc main_arg3)) (m ((c : Thread nD τ).loc main_arg4)) (m ((c : Thread nD τ).loc main_arg5)) (m ((c : Thread nD τ).loc main_arg6)) i).symm
theorem exit1_v3 : W6 m ρ c (Proc.devRef .tc main_v3) = Cert.ReferenceIdeal.Read.val_main_v3 (F := Ideal) (m ((c : Thread nD τ).loc main_arg0)) :=
  (W6_of_ne m ρ c main_v3 (by decide)).trans (entry1_v3 m ρ c)
theorem exit1_v6 : W6 m ρ c (Proc.devRef .tc main_v6) = Cert.ReferenceIdeal.Read.val_main_v6 (F := Ideal) (m ((c : Thread nD τ).loc main_arg0)) :=
  (W6_of_ne m ρ c main_v6 (by decide)).trans (entry1_v6 m ρ c)
theorem exit1_v15 : W6 m ρ c (Proc.devRef .tc main_v15) = Cert.ReferenceIdeal.Read.val_main_v15 (F := Ideal) (m ((c : Thread nD τ).loc main_arg0)) :=
  (W6_of_ne m ρ c main_v15 (by decide)).trans (entry1_v15 m ρ c)
theorem exit1_arg1 : W6 m ρ c (Proc.devRef .tc main_arg1) = (m ((c : Thread nD τ).loc main_arg1)) :=
  (W6_of_ne m ρ c main_arg1 (by decide)).trans (entry1_arg1 m ρ c)
theorem exit1_arg2 : W6 m ρ c (Proc.devRef .tc main_arg2) = (m ((c : Thread nD τ).loc main_arg2)) :=
  (W6_of_ne m ρ c main_arg2 (by decide)).trans (entry1_arg2 m ρ c)
theorem exit1_arg7 : W6 m ρ c (Proc.devRef .tc main_arg7) = (m ((c : Thread nD τ).loc main_arg7)) :=
  (W6_of_ne m ρ c main_arg7 (by decide)).trans (entry1_arg7 m ρ c)
theorem exit1_arg8 : W6 m ρ c (Proc.devRef .tc main_arg8) = (m ((c : Thread nD τ).loc main_arg8)) :=
  (W6_of_ne m ρ c main_arg8 (by decide)).trans (entry1_arg8 m ρ c)
theorem exit1_arg9 : W6 m ρ c (Proc.devRef .tc main_arg9) = (m ((c : Thread nD τ).loc main_arg9)) :=
  (W6_of_ne m ρ c main_arg9 (by decide)).trans (entry1_arg9 m ρ c)
theorem exit1_arg10 : W6 m ρ c (Proc.devRef .tc main_arg10) = (m ((c : Thread nD τ).loc main_arg10)) :=
  (W6_of_ne m ρ c main_arg10 (by decide)).trans (entry1_arg10 m ρ c)
theorem exit1_arg11 : W6 m ρ c (Proc.devRef .tc main_arg11) = (m ((c : Thread nD τ).loc main_arg11)) :=
  (W6_of_ne m ρ c main_arg11 (by decide)).trans (entry1_arg11 m ρ c)

/-! ## After the second layer's aggregation and the pair gathers -/

theorem mid_v99 : W7 m ρ c (Proc.devRef .tc main_v99) = truncf (F := Ideal) .bf16 (Cert.ReferenceIdeal.Read.val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) bitsLt_bf16_f32 :=
  Stretch2.left_rows (W6 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (exit1_v3 m ρ c) (exit1_v6 m ρ c) (exit1_v15 m ρ c) (exit1_v49 m ρ c) (exit1_arg7 m ρ c) (exit1_arg1 m ρ c)
theorem mid_v98 : W7 m ρ c (Proc.devRef .tc main_v98) = Cert.ReferenceIdeal.Read.val_main_v98 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  Stretch2.right_rows (W6 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (exit1_v3 m ρ c) (exit1_v6 m ρ c) (exit1_v15 m ρ c) (exit1_v49 m ρ c) (exit1_arg7 m ρ c) (exit1_arg1 m ρ c)
theorem mid_c21 : W7 m ρ c (Proc.devRef .tc main_c_21) = constantI S_ 32 0#32 :=
  Stretch2.pad_count (W6 m ρ c)
theorem mid_arg2 : W7 m ρ c (Proc.devRef .tc main_arg2) = (m ((c : Thread nD τ).loc main_arg2)) :=
  (Stretch2.keeps_arg2 (W6 m ρ c)).trans (exit1_arg2 m ρ c)
theorem mid_arg8 : W7 m ρ c (Proc.devRef .tc main_arg8) = (m ((c : Thread nD τ).loc main_arg8)) :=
  (Stretch2.keeps_arg8 (W6 m ρ c)).trans (exit1_arg8 m ρ c)
theorem mid_arg9 : W7 m ρ c (Proc.devRef .tc main_arg9) = (m ((c : Thread nD τ).loc main_arg9)) :=
  (Stretch2.keeps_arg9 (W6 m ρ c)).trans (exit1_arg9 m ρ c)
theorem mid_arg10 : W7 m ρ c (Proc.devRef .tc main_arg10) = (m ((c : Thread nD τ).loc main_arg10)) :=
  (Stretch2.keeps_arg10 (W6 m ρ c)).trans (exit1_arg10 m ρ c)
theorem mid_arg11 : W7 m ρ c (Proc.devRef .tc main_arg11) = (m ((c : Thread nD τ).loc main_arg11)) :=
  (Stretch2.keeps_arg11 (W6 m ρ c)).trans (exit1_arg11 m ρ c)

/-! ## At the third region's entry: its eight input arrays -/

theorem entry2_v101 : W13 m ρ c (Proc.devRef .tc main_v101)
    = (transpose S64x1007616 [1, 0] (pad S1007616x64 ![0, 0] ![7616, 0] ![0, 0] (truncf (F := Ideal) .bf16 (Cert.ReferenceIdeal.Read.val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) bitsLt_bf16_f32) (sitofp (F := Ideal) .bf16 (constantI S_ 32 0#32)) pads_S1000000x64_S1007616x64_076160_000 h_S_) transposes_S1007616x64_S64x1007616_1_0) := by
  refine (Stretch3.at_v101 (W7 m ρ c)).trans ?_
  rw [mid_v99, mid_c21]
theorem entry2_v104 : W13 m ρ c (Proc.devRef .tc main_v104)
    = (transpose S64x1007616 [1, 0] (pad S1007616x64 ![0, 0] ![7616, 0] ![0, 0] (truncf (F := Ideal) .bf16 (Cert.ReferenceIdeal.Read.val_main_v98 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) bitsLt_bf16_f32) (sitofp (F := Ideal) .bf16 (constantI S_ 32 0#32)) pads_S1000000x64_S1007616x64_076160_000 h_S_) transposes_S1007616x64_S64x1007616_1_0) := by
  refine (Stretch3.at_v104 (W7 m ρ c)).trans ?_
  rw [mid_v98]
theorem entry2_v107 : W13 m ρ c (Proc.devRef .tc main_v107)
    = (transpose S8x1007616 [1, 0] (pad S1007616x8 ![0, 0] ![7616, 0] ![0, 0] (truncf (F := Ideal) .bf16 (m ((c : Thread nD τ).loc main_arg2)) bitsLt_bf16_f32) (sitofp (F := Ideal) .bf16 (constantI S_ 32 0#32)) pads_S1000000x8_S1007616x8_076160_000 h_S_) transposes_S1007616x8_S8x1007616_1_0) := by
  refine (Stretch3.at_v107 (W7 m ρ c)).trans ?_
  rw [mid_arg2]
theorem entry2_v110 : W13 m ρ c (Proc.devRef .tc main_v110)
    = (truncf (F := Ideal) .bf16 (transpose S64x64 [1, 0] (extractStridedSlice S64x64 ![0, 0] (m ((c : Thread nD τ).loc main_arg8)) slices_S72x64_S64x64_0_0) transposes_S64x64_S64x64_1_0) bitsLt_bf16_f32) := by
  refine (Stretch3.at_v110 (W7 m ρ c)).trans ?_
  rw [mid_arg8]
theorem entry2_v113 : W13 m ρ c (Proc.devRef .tc main_v113)
    = (truncf (F := Ideal) .bf16 (transpose S64x8 [1, 0] (extractStridedSlice S8x64 ![64, 0] (m ((c : Thread nD τ).loc main_arg8)) slices_S72x64_S8x64_64_0) transposes_S8x64_S64x8_1_0) bitsLt_bf16_f32) := by
  refine (Stretch3.at_v113 (W7 m ρ c)).trans ?_
  rw [mid_arg8]
theorem entry2_v116 : W13 m ρ c (Proc.devRef .tc main_v116)
    = (shapeCast S64x1 (m ((c : Thread nD τ).loc main_arg9)) shapeCasts_S64_S64x1) := by
  refine (Stretch3.at_v116 (W7 m ρ c)).trans ?_
  rw [mid_arg9]
theorem entry2_v115 : W13 m ρ c (Proc.devRef .tc main_v115)
    = (truncf (F := Ideal) .bf16 (transpose S1x64 [1, 0] (m ((c : Thread nD τ).loc main_arg10)) transposes_S64x1_S1x64_1_0) bitsLt_bf16_f32) := by
  refine (Stretch3.at_v115 (W7 m ρ c)).trans ?_
  rw [mid_arg10]
theorem entry2_v117 : W13 m ρ c (Proc.devRef .tc main_v117)
    = (shapeCast S1x1 (m ((c : Thread nD τ).loc main_arg11)) shapeCasts_S1_S1x1) := by
  refine (Stretch3.at_v117 (W7 m ρ c)).trans ?_
  rw [mid_arg11]

/-! ## At the third region's exit, and the result -/

theorem exit2_v118 : W14 m ρ c (Proc.devRef .tc main_v118)
    = Head2.head
      (transpose S64x1007616 [1, 0] (pad S1007616x64 ![0, 0] ![7616, 0] ![0, 0] (truncf (F := Ideal) .bf16 (Cert.ReferenceIdeal.Read.val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) bitsLt_bf16_f32) (sitofp (F := Ideal) .bf16 (constantI S_ 32 0#32)) pads_S1000000x64_S1007616x64_076160_000 h_S_) transposes_S1007616x64_S64x1007616_1_0)
      (transpose S64x1007616 [1, 0] (pad S1007616x64 ![0, 0] ![7616, 0] ![0, 0] (truncf (F := Ideal) .bf16 (Cert.ReferenceIdeal.Read.val_main_v98 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) bitsLt_bf16_f32) (sitofp (F := Ideal) .bf16 (constantI S_ 32 0#32)) pads_S1000000x64_S1007616x64_076160_000 h_S_) transposes_S1007616x64_S64x1007616_1_0)
      (transpose S8x1007616 [1, 0] (pad S1007616x8 ![0, 0] ![7616, 0] ![0, 0] (truncf (F := Ideal) .bf16 (m ((c : Thread nD τ).loc main_arg2)) bitsLt_bf16_f32) (sitofp (F := Ideal) .bf16 (constantI S_ 32 0#32)) pads_S1000000x8_S1007616x8_076160_000 h_S_) transposes_S1007616x8_S8x1007616_1_0)
      (truncf (F := Ideal) .bf16 (transpose S64x64 [1, 0] (extractStridedSlice S64x64 ![0, 0] (m ((c : Thread nD τ).loc main_arg8)) slices_S72x64_S64x64_0_0) transposes_S64x64_S64x64_1_0) bitsLt_bf16_f32)
      (truncf (F := Ideal) .bf16 (transpose S64x8 [1, 0] (extractStridedSlice S8x64 ![64, 0] (m ((c : Thread nD τ).loc main_arg8)) slices_S72x64_S8x64_64_0) transposes_S8x64_S64x8_1_0) bitsLt_bf16_f32)
      (shapeCast S64x1 (m ((c : Thread nD τ).loc main_arg9)) shapeCasts_S64_S64x1)
      (truncf (F := Ideal) .bf16 (transpose S1x64 [1, 0] (m ((c : Thread nD τ).loc main_arg10)) transposes_S64x1_S1x64_1_0) bitsLt_bf16_f32)
      (shapeCast S1x1 (m ((c : Thread nD τ).loc main_arg11)) shapeCasts_S1_S1x1) := by
  refine (W14_arr m ρ c 8).trans ((Head2.final (V13 m ρ) c).trans ?_)
  show Head2.head (W13 m ρ c (Proc.devRef .tc main_v101)) (W13 m ρ c (Proc.devRef .tc main_v104)) (W13 m ρ c (Proc.devRef .tc main_v107)) (W13 m ρ c (Proc.devRef .tc main_v110))
      (W13 m ρ c (Proc.devRef .tc main_v113)) (W13 m ρ c (Proc.devRef .tc main_v116)) (W13 m ρ c (Proc.devRef .tc main_v115)) (W13 m ρ c (Proc.devRef .tc main_v117)) = _
  rw [entry2_v101, entry2_v104, entry2_v107, entry2_v110, entry2_v113, entry2_v116, entry2_v115, entry2_v117]

/-! ### The arrays the head reads, named with their array types -/

/-- The second graph layer's rows gathered at the first column of the pair list (the reference's stage). -/
abbrev leftRows : FVec Ideal S1000000x64 .f32 := Cert.ReferenceIdeal.Read.val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))
/-- The second graph layer's rows gathered at the second column of the pair list (the reference's stage). -/
abbrev rightRows : FVec Ideal S1000000x64 .f32 := Cert.ReferenceIdeal.Read.val_main_v98 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))
/-- The patient features. -/
abbrev patient : FVec Ideal S1000000x8 .f32 := (m ((c : Thread nD τ).loc main_arg2))
/-- The head's first weight matrix, 72 x 64, and its bias. -/
abbrev headW1 : FVec Ideal S72x64 .f32 := (m ((c : Thread nD τ).loc main_arg8))
abbrev headB1 : S64.Idx → EReal := (m ((c : Thread nD τ).loc main_arg9))
/-- The head's second weight matrix, 64 x 1, and its bias. -/
abbrev headW2 : FVec Ideal S64x1 .f32 := (m ((c : Thread nD τ).loc main_arg10))
abbrev headB2 : S1.Idx → EReal := (m ((c : Thread nD τ).loc main_arg11))

/-- The kernel program's result at pair `i`: the logistic function of the head's second contraction, the weights on
    the left, the first contraction split into its first 64 terms (the products of the two gathered rows) and its last 8
    (the patient features). -/
theorem result_apply (i : S1000000.Idx) :
    W15 m ρ c (Proc.devRef .tc main_v120) i
      = Ideal.logistic ((∑ k : Fin 64, headW2 m c (HeadInputs.w2ix k) * max ((∑ j : Fin 64, headW1 m c (HeadInputs.w1ix (Fin.castAdd 8 j) k)
            * (leftRows m c (HeadInputs.pix i j) * rightRows m c (HeadInputs.pix i j)))
          + (∑ j : Fin 8, headW1 m c (HeadInputs.w1ix (Fin.natAdd 64 j) k) * patient m c (HeadInputs.qix i j)) + headB1 m c (HeadInputs.vix k)) 0)
        + headB2 m c HeadInputs.zix) := by
  have h : W15 m ρ c (Proc.devRef .tc main_v120)
      = shapeCast S1000000 (extractStridedSlice S1x1000000 ![0, 0] (W14 m ρ c (Proc.devRef .tc main_v118)) slices_S1x1007616_S1x1000000_0_0) shapeCasts_S1x1000000_S1000000 :=
    Stretch4.result (W14 m ρ c)
  rw [h, exit2_v118]
  exact HeadInputs.out_apply (leftRows m c) (rightRows m c) (patient m c) (headW1 m c) (headB1 m c) (headW2 m c) (headB2 m c) (sitofp (F := Ideal) .bf16 (constantI S_ 32 0#32)) (sitofp (F := Ideal) .bf16 (constantI S_ 32 0#32)) (sitofp (F := Ideal) .bf16 (constantI S_ 32 0#32)) i

end Cert.KernelIdeal.ReadBack

end
-- ==== Proof.RefTail.lean ====
/- The reference's last stages read at an index: the output entry `i` is the logistic function, written
   1 / (1 + exp (−z)), of z = (Σ_k max ((Σ_j c(i, j) · W₁(j, k)) + b₁(k)) 0 · W₂(k, 0)) + b₂(0), where row `i` of the
   combined features c is the 64 products of the two gathered rows followed by the 8 entries of row `i` of the third
   argument. The gathered rows are left as the stages that produce them. -/
import proofs.«118890_j31464930411166_1_alg».proof.Proof.RefRead
import Idealize.ShloMosaic.Lib.Pipeline.Value
import Idealize.ShloMosaic.Lib.ValueIdx
import Idealize.ShloMosaic.PureOps.Ideal.Laws

noncomputable section

namespace Cert.ReferenceIdeal.Tail

open Cert.ReferenceIdeal Cert.ReferenceIdeal.Gen Cert.ReferenceIdeal.Read Idealize.ShloMosaic Idealize.ShloMosaic.TcCoe Idealize.SL.Sem Idealize.ShloMosaic.StableHlo

/-! ## Indices -/

/-- Entry (row `i`, column `j`) of the 1000000 × 72 combined features. -/
abbrev cix (i : S1000000.Idx) (j : Fin 72) : S1000000x72.Idx := fun a => match a with
  | ⟨0, _⟩ => ⟨(i 0).val, (i 0).isLt⟩
  | ⟨1, _⟩ => ⟨j.val, j.isLt⟩
/-- Entry (row `i`, column `j`) of a 1000000 × 64 array. -/
abbrev pix (i : S1000000.Idx) (j : Fin 64) : S1000000x64.Idx := fun a => match a with
  | ⟨0, _⟩ => ⟨(i 0).val, (i 0).isLt⟩
  | ⟨1, _⟩ => ⟨j.val, j.isLt⟩
/-- Entry (row `i`, column `j`) of a 1000000 × 8 array. -/
abbrev qix (i : S1000000.Idx) (j : Fin 8) : S1000000x8.Idx := fun a => match a with
  | ⟨0, _⟩ => ⟨(i 0).val, (i 0).isLt⟩
  | ⟨1, _⟩ => ⟨j.val, j.isLt⟩
/-- Entry (`j`, `k`) of the 72 × 64 first weight matrix. -/
abbrev w1ix (j : Fin 72) (k : Fin 64) : S72x64.Idx := fun a => match a with
  | ⟨0, _⟩ => ⟨j.val, j.isLt⟩
  | ⟨1, _⟩ => ⟨k.val, k.isLt⟩
/-- Entry `k` of the first bias. -/
abbrev vix (k : Fin 64) : S64.Idx := fun a => match a with
  | ⟨0, _⟩ => ⟨k.val, k.isLt⟩
/-- Entry (`k`, 0) of the 64 × 1 second weight matrix. -/
abbrev w2ix (k : Fin 64) : S64x1.Idx := fun a => match a with
  | ⟨0, _⟩ => ⟨k.val, k.isLt⟩
  | ⟨1, _⟩ => ⟨0, Nat.one_pos⟩
/-- The one entry of the second bias. -/
abbrev zix : S1.Idx := fun a => match a with
  | ⟨0, _⟩ => ⟨0, Nat.one_pos⟩

/-- The word of the float literal 1.0 is the number one. -/
theorem one_f32 : Ideal.ofBits .f32 0x3F800000#32 = 1 := by
  simp [Ideal.ofBits, Ideal.ieee, -EReal.coe_mul]; norm_num

/-! ## The stages' index functions at these indices -/

theorem lidx_v106 (i : S1000000.Idx) (k : Fin 64) : lidx_main_v106 (idx_main_v116 i) k = pix i k :=
  funext fun a => Fin.ext (by
    match a with
    | ⟨0, _⟩ => show (i 0).val / 1 = (i 0).val; exact Nat.div_one _
    | ⟨1, _⟩ => rfl)
theorem ridx_v106 (i : S1000000.Idx) (k : Fin 64) : ridx_main_v106 (idx_main_v116 i) k = w2ix k :=
  funext fun a => Fin.ext (by
    match a with
    | ⟨0, _⟩ => rfl
    | ⟨1, _⟩ => rfl)
theorem idx_bias2 (i : S1000000.Idx) : idx_main_v107 (idx_main_v108 (idx_main_v116 i)) = zix :=
  funext fun a => Fin.ext (by
    match a with
    | ⟨0, _⟩ => rfl)
theorem lidx_v101 (i : S1000000.Idx) (k : Fin 64) (j : Fin 72) : lidx_main_v101 (pix i k) j = cix i j :=
  funext fun a => Fin.ext (by
    match a with
    | ⟨0, _⟩ => rfl
    | ⟨1, _⟩ => rfl)
theorem ridx_v101 (i : S1000000.Idx) (k : Fin 64) (j : Fin 72) : ridx_main_v101 (pix i k) j = w1ix j k :=
  funext fun a => Fin.ext (by
    match a with
    | ⟨0, _⟩ => rfl
    | ⟨1, _⟩ => rfl)
theorem idx_bias1 (i : S1000000.Idx) (k : Fin 64) : idx_main_v102 (idx_main_v103 (pix i k)) = vix k :=
  funext fun a => Fin.ext (by
    match a with
    | ⟨0, _⟩ => rfl)

/-! ## A concatenation along the columns, read at an entry -/

/-- A column below 64 of the concatenation of a 1000000 × 64 and a 1000000 × 8 array reads the first array. -/
theorem concat_left (y : S1000000x64.Idx → EReal) (z : S1000000x8.Idx → EReal) (i : S1000000.Idx) (j : Fin 64) :
    concatenate S1000000x72 1 [⟨S1000000x64, y⟩, ⟨S1000000x8, z⟩] concatenates_S1000000x64_S1000000x8_S1000000x72_d1 (cix i (Fin.castAdd 8 j)) = y (pix i j) :=
  concatenate_pair_apply_left (1 : Fin S1000000x72.rank) y z concatenates_S1000000x64_S1000000x8_S1000000x72_d1
    (cix i (Fin.castAdd 8 j)) rfl (pix i j) (fun b => by
      match b with
      | ⟨0, _⟩ => rfl
      | ⟨1, _⟩ => rfl)

/-- Column 64 + `j` reads the second array at column `j`. -/
theorem concat_right (y : S1000000x64.Idx → EReal) (z : S1000000x8.Idx → EReal) (i : S1000000.Idx) (j : Fin 8) :
    concatenate S1000000x72 1 [⟨S1000000x64, y⟩, ⟨S1000000x8, z⟩] concatenates_S1000000x64_S1000000x8_S1000000x72_d1 (cix i (Fin.natAdd 64 j)) = z (qix i j) :=
  concatenate_pair_apply_right (1 : Fin S1000000x72.rank) y z concatenates_S1000000x64_S1000000x8_S1000000x72_d1
    (cix i (Fin.natAdd 64 j)) rfl rfl (qix i j) (fun b hb => by
      match b with
      | ⟨0, _⟩ => rfl
      | ⟨1, _⟩ => exact absurd rfl hb)
    (by show j.val + 64 = 64 + j.val; omega)

variable (x0 : (⟨S2x3200000, .i32⟩ : BufTy).Contents (Elt Ideal)) (x1 : (⟨S1000000x2, .i32⟩ : BufTy).Contents (Elt Ideal)) (x2 : (⟨S1000000x8, .f32⟩ : BufTy).Contents (Elt Ideal)) (x3 : (⟨S100000x32, .f32⟩ : BufTy).Contents (Elt Ideal)) (x4 : (⟨S32x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S72x64, .f32⟩ : BufTy).Contents (Elt Ideal)) (x9 : (⟨S64, .f32⟩ : BufTy).Contents (Elt Ideal)) (x10 : (⟨S64x1, .f32⟩ : BufTy).Contents (Elt Ideal)) (x11 : (⟨S1, .f32⟩ : BufTy).Contents (Elt Ideal))

/-! ## The combined features -/

/-- Entry (`i`, `j`) of the combined features: the concatenation, along the columns, of the 64 products of the two
    gathered rows and the 8 columns of the third argument. -/
def comb (i : S1000000.Idx) (j : Fin 72) : EReal :=
  val_main_v100 (F := Ideal) x0 x1 x2 x3 x4 x5 x6 x7 (cix i j)

/-- The first 64 columns: the product of the two gathered rows' entries. -/
theorem comb_left (i : S1000000.Idx) (j : Fin 64) :
    comb x0 x1 x2 x3 x4 x5 x6 x7 i (Fin.castAdd 8 j)
      = val_main_v89 (F := Ideal) x0 x1 x3 x4 x5 x6 x7 (pix i j) * val_main_v98 (F := Ideal) x0 x1 x3 x4 x5 x6 x7 (pix i j) := by
  unfold comb val_main_v100
  refine (concat_left _ x2 i j).trans ?_
  rw [val_main_v99_apply, Ideal.mulf_def]

/-- The last 8 columns: the third argument's row. -/
theorem comb_right (i : S1000000.Idx) (j : Fin 8) :
    comb x0 x1 x2 x3 x4 x5 x6 x7 i (Fin.natAdd 64 j) = x2 (qix i j) := by
  unfold comb val_main_v100
  exact concat_right _ x2 i j

/-! ## The hidden layer and the output -/

/-- The hidden layer's unit `k` for row `i`: the rectified affine image of the combined features. -/
theorem hidden_apply (i : S1000000.Idx) (k : Fin 64) :
    val_main_v105 (F := Ideal) x0 x1 x2 x3 x4 x5 x6 x7 x8 x9 (pix i k)
      = max ((∑ j : Fin 72, comb x0 x1 x2 x3 x4 x5 x6 x7 i j * x8 (w1ix j k)) + x9 (vix k)) 0 := by
  unfold comb
  rw [val_main_v105_apply, val_main_v104_apply, val_main_v101_apply, val_main_v103_apply, val_main_v102_apply,
    val_main_call2_v0_apply, val_main_call2_cst_apply, idx_bias1]
  simp only [lidx_v101, ridx_v101]
  rw [Ideal.maximumf_def, Ideal.addf_def, Ideal.ofBits_def, Ideal.ofBits_zero_f32]

/-- The output at `i`: the logistic function of the affine image of the hidden layer. -/
theorem out_apply (i : S1000000.Idx) :
    val_main_v116 (F := Ideal) x0 x1 x2 x3 x4 x5 x6 x7 x8 x9 x10 x11 i
      = Ideal.div 1 (1 + Ideal.exp (-((∑ k : Fin 64, max ((∑ j : Fin 72, comb x0 x1 x2 x3 x4 x5 x6 x7 i j * x8 (w1ix j k)) + x9 (vix k)) 0 * x10 (w2ix k)) + x11 zix))) := by
  rw [val_main_v116_apply, val_main_v115_apply, val_main_v114_apply, val_main_cst_22_apply, val_main_v113_apply,
    val_main_v112_apply, val_main_cst_21_apply, val_main_v111_apply, val_main_v110_apply, val_main_v109_apply,
    val_main_v106_apply, val_main_v108_apply, val_main_v107_apply, idx_bias2]
  simp only [lidx_v106, ridx_v106, hidden_apply]
  rw [Ideal.hostDivf_def, Ideal.hostUnary_exp_def, Ideal.hostNegf_def, Ideal.negf_def, Ideal.addf_def, Ideal.addf_def,
    Ideal.ofBits_def, one_f32]

end Cert.ReferenceIdeal.Tail

end
-- ==== Proof.HeadMath.lean ====
/-
  The arithmetic that joins the two forms of the prediction head, on the extended reals.

  One form contracts a row of 72 features (64 products of two embeddings, then 8 patient features) against a 72 x 64
  weight matrix in ONE sum; the other contracts the first 64 and the last 8 in TWO sums, with the factors of each
  product in the other order. A finite sum over 64 + 8 terms is the sum over the first 64 plus the sum over the last 8,
  and sums and products of extended reals are commutative and associative, so the two agree whatever the entries are:
  no finiteness is used. The logistic function is 1 / (1 + exp (-x)) by definition.
-/
import Idealize.ShloMosaic.PureOps.Ideal
import Mathlib.Algebra.BigOperators.Fin

noncomputable section

namespace Cert.HeadMath

open Idealize.ShloMosaic

/-- A sum of 72 terms is the sum of its first 64 and of its last 8. -/
theorem sum_split (f : Fin 72 → EReal) :
    ∑ j : Fin 72, f j = (∑ j : Fin 64, f (Fin.castAdd 8 j)) + ∑ j : Fin 8, f (Fin.natAdd 64 j) :=
  Fin.sum_univ_add (a := 64) (b := 8) f

/-- The contraction of a concatenated row against the stacked weights is the sum of the two partial contractions,
    each product written with the weight first. -/
theorem contract_split (comb : Fin 72 → EReal) (dA : Fin 64 → EReal) (pt : Fin 8 → EReal) (w : Fin 72 → EReal)
    (hl : ∀ j : Fin 64, comb (Fin.castAdd 8 j) = dA j) (hr : ∀ j : Fin 8, comb (Fin.natAdd 64 j) = pt j) :
    ∑ j : Fin 72, comb j * w j
      = (∑ j : Fin 64, w (Fin.castAdd 8 j) * dA j) + ∑ j : Fin 8, w (Fin.natAdd 64 j) * pt j := by
  rw [sum_split]
  congr 1
  · exact Finset.sum_congr rfl fun j _ => by rw [hl, mul_comm]
  · exact Finset.sum_congr rfl fun j _ => by rw [hr, mul_comm]

/-- The two forms of the head agree: the split contraction with weights on the left, rectified, contracted with
    the output weights on the left and squashed by the logistic function, against the single contraction with weights on
    the right, rectified, contracted with the output weights on the right and squashed by 1 / (1 + exp (-x)). -/
theorem head_eq (comb : Fin 72 → EReal) (dA : Fin 64 → EReal) (pt : Fin 8 → EReal) (w1 : Fin 72 → Fin 64 → EReal)
    (b1 w2 : Fin 64 → EReal) (b2 : EReal)
    (hl : ∀ j : Fin 64, comb (Fin.castAdd 8 j) = dA j) (hr : ∀ j : Fin 8, comb (Fin.natAdd 64 j) = pt j) :
    Ideal.logistic ((∑ k : Fin 64, w2 k * max ((∑ j : Fin 64, w1 (Fin.castAdd 8 j) k * dA j)
        + (∑ j : Fin 8, w1 (Fin.natAdd 64 j) k * pt j) + b1 k) 0) + b2)
      = Ideal.div 1 (1 + Ideal.exp (-((∑ k : Fin 64, max ((∑ j : Fin 72, comb j * w1 j k) + b1 k) 0 * w2 k) + b2))) := by
  have hsum : (∑ k : Fin 64, w2 k * max ((∑ j : Fin 64, w1 (Fin.castAdd 8 j) k * dA j)
        + (∑ j : Fin 8, w1 (Fin.natAdd 64 j) k * pt j) + b1 k) 0)
      = ∑ k : Fin 64, max ((∑ j : Fin 72, comb j * w1 j k) + b1 k) 0 * w2 k :=
    Finset.sum_congr rfl fun k _ => by
      rw [contract_split comb dA pt (fun j => w1 j k) hl hr, mul_comm]
  rw [hsum]
  rfl

end Cert.HeadMath

end
-- ==== Proof.Join.lean ====
/-
  The two results are one function of the arguments.

  At pair i the kernel program's result is the logistic function of the head in its split form with the weights on the
  left (read back through the three regions), and the reference's is 1 / (1 + exp (-x)) of the head in its single-sum
  form with the weights on the right (its stages read at an index). Both are over the SAME two gathered rows of the
  second graph layer, whose computation the two programs share operation by operation, so the head's arithmetic alone
  joins them: a sum of 72 terms split after the 64th, commuted products, and the definition of the logistic function.
-/
import proofs.«118890_j31464930411166_1_alg».proof.Proof.ReadBack
import proofs.«118890_j31464930411166_1_alg».proof.Proof.RefTail
import proofs.«118890_j31464930411166_1_alg».proof.Proof.HeadMath

set_option maxRecDepth 16384

noncomputable section

namespace Cert.KernelIdeal.Join

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The kernel program's result array is the reference's last stage of the same arguments. -/
theorem result_eq : W15 m ρ c (Proc.devRef .tc main_v120) = Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  rw [ReadBack.result_apply m ρ c i]
  refine Eq.trans ?_ (Cert.ReferenceIdeal.Tail.out_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i).symm
  exact Cert.HeadMath.head_eq
    (fun j => Cert.ReferenceIdeal.Tail.comb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i j)
    (fun j => ReadBack.leftRows m c (HeadInputs.pix i j) * ReadBack.rightRows m c (HeadInputs.pix i j))
    (fun j => ReadBack.patient m c (HeadInputs.qix i j))
    (fun j k => ReadBack.headW1 m c (HeadInputs.w1ix j k))
    (fun k => ReadBack.headB1 m c (HeadInputs.vix k))
    (fun k => ReadBack.headW2 m c (HeadInputs.w2ix k))
    (ReadBack.headB2 m c HeadInputs.zix)
    (fun j => Cert.ReferenceIdeal.Tail.comb_left (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i j)
    (fun j => Cert.ReferenceIdeal.Tail.comb_right (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i j)

end Cert.KernelIdeal.Join

end
-- ==== Proof.lean ====
/-
  The proof of `Cert.Claim`: the three frames, the idealization, and the equality of the two programs' results on the
  extended reals.

  The program is a two-layer graph convolution followed by a prediction head over a million node pairs. Both programs
  compute the node degrees, the normalised neighbour aggregations (gather, scale, scatter-add) and the pair gathers by
  the SAME host operations; they differ in three places. The kernel program computes each layer's dense product in a
  region tiled over blocks of 10000 rows, where the reference has one matrix product: every block of the output is that
  block of the product, and the blocks cover the rows. And the kernel program computes the head in a third region, on
  arrays laid out with the pairs along the columns and padded to a multiple of 8192 columns, with the first contraction
  split into the 64 embedding products and the 8 patient features and every product written weight-first, where the
  reference concatenates, contracts once, rectifies, contracts again and applies 1 / (1 + exp (-x)): column p of the
  region's output depends only on column p of its inputs, the padded columns are cut away at the end, a sum of 72 terms is
  the sum of its first 64 and its last 8, products commute, a change of float format is the identity on the extended
  reals, and the logistic function is 1 / (1 + exp (-x)) by definition. None of these laws needs the inputs finite, so
  the precondition is never opened. The idealization rewrote no operation, so its claim is trivial.
-/
import proofs.«118890_j31464930411166_1_alg».proof.Defs
import proofs.«118890_j31464930411166_1_alg».proof.Proof.Gen.Kernel
import proofs.«118890_j31464930411166_1_alg».proof.Proof.Gen.Kernel.Skeleton
import proofs.«118890_j31464930411166_1_alg».proof.Proof.Gen.Kernel.Launch
import proofs.«118890_j31464930411166_1_alg».proof.Proof.Gen.Kernel.Points
import proofs.«118890_j31464930411166_1_alg».proof.Proof.Gen.Kernel.Frame
import proofs.«118890_j31464930411166_1_alg».proof.Proof.Gen.KernelIdeal
import proofs.«118890_j31464930411166_1_alg».proof.Proof.Gen.KernelIdeal.Skeleton
import proofs.«118890_j31464930411166_1_alg».proof.Proof.Gen.KernelIdeal.Launch
import proofs.«118890_j31464930411166_1_alg».proof.Proof.Gen.KernelIdeal.Points
import proofs.«118890_j31464930411166_1_alg».proof.Proof.Gen.KernelIdeal.Frame
import proofs.«118890_j31464930411166_1_alg».proof.Proof.Gen.ReferenceIdeal
import proofs.«118890_j31464930411166_1_alg».proof.Proof.Gen.Pre_finite_inputs
import proofs.«118890_j31464930411166_1_alg».proof.Proof.RefRun
import proofs.«118890_j31464930411166_1_alg».proof.Proof.RefRead
import proofs.«118890_j31464930411166_1_alg».proof.Proof.KernelRun
import proofs.«118890_j31464930411166_1_alg».proof.Proof.Join
import Idealize.ShloMosaic.Adequacy
import Idealize.ShloMosaic.Init

noncomputable section

namespace Cert.Proof

open Idealize.ShloMosaic Idealize.SL.Sem

/-- The word-level kernel program runs and leaves its arguments unchanged (the generated frame). -/
theorem frame_kernel [Cert.Kernel.Facts] [Cert.Pre_finite_inputs.Facts] : Cert.frame_Kernel :=
  fun m ρ _ => Cert.Kernel.Gen.frame m ρ

/-- The idealized kernel program runs and leaves its arguments unchanged (the generated frame). -/
theorem frame_kernelIdeal [Cert.KernelIdeal.Facts] [Cert.Pre_finite_inputs.Facts] : Cert.frame_KernelIdeal :=
  fun m ρ _ => Cert.KernelIdeal.Gen.frame m ρ

/-- The idealized reference runs and leaves its arguments unchanged: its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the arguments both idealized programs run, and end with equal results: the kernel
    program's result is the last segment boundary's contents, which read back is the reference's last stage of the
    arguments, and the reference's run ends at that stage. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W15 m ρ c (Proc.devRef .tc Cert.KernelIdeal.main_v120),
    Cert.KernelIdeal.RunResult.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v116_eq, e0, e1, e2, e3, e4, e5, e6, e7, e8, e9, e10, e11]
  exact (Cert.KernelIdeal.Join.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
